-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S800000 .f32) (main_arg3 : FVec F S50000x64 .f32) (main_arg4 : FVec F S128x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S64x128 : Shape := ⟨2, ![64, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S5000x1 : Shape := ⟨2, ![5000, 1]⟩
abbrev S1x128 : Shape := ⟨2, ![1, 128]⟩
abbrev S1x6400000 : Shape := ⟨2, ![1, 6400000]⟩
abbrev S1x3200000 : Shape := ⟨2, ![1, 3200000]⟩
abbrev S64x64 : Shape := ⟨2, ![64, 64]⟩
abbrev S800000x64 : Shape := ⟨2, ![800000, 64]⟩
abbrev S1x64 : Shape := ⟨2, ![1, 64]⟩

abbrev nBuf : Space → Nat
  | .hbm => 99
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000x64, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S64x128, .f32⟩
  | .hbm, ⟨54, _⟩ => ⟨S64x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x1, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S1x6400000, .f32⟩
  | .hbm, ⟨74, _⟩ => ⟨S1x3200000, .f32⟩
  | .hbm, ⟨75, _⟩ => ⟨S1x3200000, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S64x64, .f32⟩
  | .hbm, ⟨80, _⟩ => ⟨S64x64, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .f32⟩
  | .hbm, ⟨91, _⟩ => ⟨S800000x1, .f32⟩
  | .hbm, ⟨92, _⟩ => ⟨S800000x64, .f32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S50000x128_S1x6400000 : S50000x128.ShapeCasts S1x6400000
  slices_S1x6400000_S1x3200000_0_0 : S1x6400000.Slices ![0, 0] S1x3200000
  slices_S1x6400000_S1x3200000_0_3200000 : S1x6400000.Slices ![0, 3200000] S1x3200000
  shapeCasts_S1x3200000_S50000x64 : S1x3200000.ShapeCasts S50000x64
  slices_S128x64_S64x64_0_0 : S128x64.Slices ![0, 0] S64x64
  slices_S128x64_S64x64_64_0 : S128x64.Slices ![64, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg3) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v72) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x6400000 : Shape := ⟨2, ![1, 6400000]⟩
abbrev S1x3200000 : Shape := ⟨2, ![1, 3200000]⟩
abbrev S800000x64 : Shape := ⟨2, ![800000, 64]⟩
abbrev S1x64 : Shape := ⟨2, ![1, 64]⟩

abbrev nBuf : Space → Nat
  | .hbm => 163
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S50000x128, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S50000, .f32⟩
  | 68 => ⟨S50000, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x6400000, .f32⟩
  | 86 => ⟨S1x3200000, .f32⟩
  | 87 => ⟨S1x3200000, .f32⟩
  | 88 => ⟨S50000x64, .f32⟩
  | 89 => ⟨S50000x64, .f32⟩
  | 90 => ⟨S50000x64, .f32⟩
  | 91 => ⟨S50000x128, .f32⟩
  | 92 => ⟨S50000x64, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .i1⟩
  | 105 => ⟨S50000, .f32⟩
  | 106 => ⟨S_, .f32⟩
  | 107 => ⟨S_, .f32⟩
  | 108 => ⟨S50000, .f32⟩
  | 109 => ⟨S50000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S50000x64, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S800000x1, .f32⟩
  | 11 => ⟨S800000x64, .f32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S_, .f32⟩
  | 18 => ⟨S50000, .f32⟩
  | 19 => ⟨S50000, .f32⟩
  | 20 => ⟨S50000, .f32⟩
  | 21 => ⟨S50000x1, .f32⟩
  | 22 => ⟨S50000x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S50000x64, .f32⟩
  | 34 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_call1_v0 : Ref sig .tc := ⟨.hbm, 107, rfl⟩
abbrev main_call1_v1 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_22 : Ref sig .tc := ⟨.hbm, 129, rfl⟩
abbrev main_v93 : Ref sig .tc := ⟨.hbm, 130, rfl⟩
abbrev main_v94 : Ref sig .tc := ⟨.hbm, 131, rfl⟩
abbrev main_c_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_25 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_26 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x64_S50000x64_S50000x128_d1 : Shape.Concatenates [S50000x64, S50000x64] S50000x128 1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S1x6400000 : S50000x128.ShapeCasts S1x6400000
  slices_S1x6400000_S1x3200000_0_0 : S1x6400000.Slices ![0, 0] S1x3200000
  slices_S1x6400000_S1x3200000_0_3200000 : S1x6400000.Slices ![0, 3200000] S1x3200000
  shapeCasts_S1x3200000_S50000x64 : S1x3200000.ShapeCasts S50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel program's run with its result named.

  The program is four tiled stages with stretches of array operations between them. Its run is the
  library's theorem about a list of such segments: every weakly fair execution ends, nothing faults, and
  every buffer that outlives the run holds the last boundary's contents — the fold of the segments from the
  launch memory. Stated here for the result buffer beside the eight arguments; the value module reads
  that fold back stage by stage.
-/
import proofs.«153109_j7215545057454_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the
    last boundary's contents and each argument array as launched. -/
theorem run_result : θ_run defs (onTc (τ := τ) (main (F := F))) ⟨m, fun _ => 0, ρ⟩ (fun r => ∀ c : Dev nD,
      r.2.mem ((c.tc : Thread nD τ).loc main_v72) = W10 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v72 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.Bounds.lean ====
import proofs.«153109_j7215545057454_1_alg».proof.Proof.Gen.KernelIdeal.Frame
import proofs.«153109_j7215545057454_1_alg».proof.Proof.RefRead
import proofs.«153109_j7215545057454_1_alg».proof.Proof.LibColumn
import Idealize.ShloMosaic.Lib.StableHlo.Run
import Idealize.ShloMosaic.PureOps.Ideal

set_option maxRecDepth 16384
set_option quotPrecheck false
noncomputable section
namespace Cert.KernelIdeal.Stages
open Cert.ReferenceIdeal.Read
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## What the buffers hold when each tiled stage is entered

Each record lists, for one boundary of the program, the buffers later steps read and what they hold, written with the
reference's own stages (functions of the argument arrays): the edge lists `val_main_v1` (sources) and `val_main_v3`
(targets), the edge factor `val_main_v30`, the per-node factor as a column `val_main_v47`, the first projection
`val_main_v5`, its aggregate `val_main_v43`, the gate `val_main_v59` and its two halves re-laid as `val_main_v63` /
`val_main_v64`, the gated state `val_main_v65`, the second projection `val_main_v67` and its aggregate `val_main_v105`. -/

/-- On entering the first projection. -/
structure At3 : Prop where
  v1 : W3 (F := Ideal) m ρ c (Proc.devRef .tc main_v1) = val_main_v1 (F := Ideal) a1
  v3 : W3 (F := Ideal) m ρ c (Proc.devRef .tc main_v3) = val_main_v3 (F := Ideal) a1
  v28 : W3 (F := Ideal) m ρ c (Proc.devRef .tc main_v28) = val_main_v30 (F := Ideal) a1
  v32 : W3 (F := Ideal) m ρ c (Proc.devRef .tc main_v32) = val_main_v47 (F := Ideal) a1
  v33 : W3 (F := Ideal) m ρ c (Proc.devRef .tc main_v33) = extractStridedSlice S64x128 ![0, 0] a4 slices_S128x128_S64x128_0_0
  v34 : W3 (F := Ideal) m ρ c (Proc.devRef .tc main_v34) = extractStridedSlice S64x128 ![64, 0] a4 slices_S128x128_S64x128_64_0
  arg0 : W3 (F := Ideal) m ρ c (Proc.devRef .tc main_arg0) = a0
  arg3 : W3 (F := Ideal) m ρ c (Proc.devRef .tc main_arg3) = a3
  arg5 : W3 (F := Ideal) m ρ c (Proc.devRef .tc main_arg5) = a5
  arg6 : W3 (F := Ideal) m ρ c (Proc.devRef .tc main_arg6) = a6
  arg7 : W3 (F := Ideal) m ρ c (Proc.devRef .tc main_arg7) = a7

/-- On entering the gate. -/
structure At5 : Prop where
  v48 : W5 (F := Ideal) m ρ c (Proc.devRef .tc main_v48) = val_main_v43 (F := Ideal) a0 a1 a3 a4
  v35 : W5 (F := Ideal) m ρ c (Proc.devRef .tc main_v35) = val_main_v5 (F := Ideal) a0 a3 a4
  v32 : W5 (F := Ideal) m ρ c (Proc.devRef .tc main_v32) = val_main_v47 (F := Ideal) a1
  arg5 : W5 (F := Ideal) m ρ c (Proc.devRef .tc main_arg5) = a5
  v1 : W5 (F := Ideal) m ρ c (Proc.devRef .tc main_v1) = val_main_v1 (F := Ideal) a1
  v3 : W5 (F := Ideal) m ρ c (Proc.devRef .tc main_v3) = val_main_v3 (F := Ideal) a1
  v28 : W5 (F := Ideal) m ρ c (Proc.devRef .tc main_v28) = val_main_v30 (F := Ideal) a1
  arg0 : W5 (F := Ideal) m ρ c (Proc.devRef .tc main_arg0) = a0
  arg3 : W5 (F := Ideal) m ρ c (Proc.devRef .tc main_arg3) = a3
  arg6 : W5 (F := Ideal) m ρ c (Proc.devRef .tc main_arg6) = a6
  arg7 : W5 (F := Ideal) m ρ c (Proc.devRef .tc main_arg7) = a7

/-- On entering the second projection. -/
structure At7 : Prop where
  arg0 : W7 (F := Ideal) m ρ c (Proc.devRef .tc main_arg0) = a0
  v55 : W7 (F := Ideal) m ρ c (Proc.devRef .tc main_v55) = val_main_v65 (F := Ideal) a0 a1 a3 a4 a5
  v56 : W7 (F := Ideal) m ρ c (Proc.devRef .tc main_v56) = extractStridedSlice S64x64 ![0, 0] a6 slices_S128x64_S64x64_0_0
  v57 : W7 (F := Ideal) m ρ c (Proc.devRef .tc main_v57) = extractStridedSlice S64x64 ![64, 0] a6 slices_S128x64_S64x64_64_0
  v54 : W7 (F := Ideal) m ρ c (Proc.devRef .tc main_v54) = val_main_v64 (F := Ideal) a0 a1 a3 a4 a5
  v1 : W7 (F := Ideal) m ρ c (Proc.devRef .tc main_v1) = val_main_v1 (F := Ideal) a1
  v3 : W7 (F := Ideal) m ρ c (Proc.devRef .tc main_v3) = val_main_v3 (F := Ideal) a1
  v28 : W7 (F := Ideal) m ρ c (Proc.devRef .tc main_v28) = val_main_v30 (F := Ideal) a1
  v32 : W7 (F := Ideal) m ρ c (Proc.devRef .tc main_v32) = val_main_v47 (F := Ideal) a1
  arg3 : W7 (F := Ideal) m ρ c (Proc.devRef .tc main_arg3) = a3
  arg7 : W7 (F := Ideal) m ρ c (Proc.devRef .tc main_arg7) = a7

/-- On entering the update. -/
structure At9 : Prop where
  v71 : W9 (F := Ideal) m ρ c (Proc.devRef .tc main_v71) = val_main_v105 (F := Ideal) a0 a1 a3 a4 a5 a6
  v58 : W9 (F := Ideal) m ρ c (Proc.devRef .tc main_v58) = val_main_v67 (F := Ideal) a0 a1 a3 a4 a5 a6
  v32 : W9 (F := Ideal) m ρ c (Proc.devRef .tc main_v32) = val_main_v47 (F := Ideal) a1
  arg7 : W9 (F := Ideal) m ρ c (Proc.devRef .tc main_arg7) = a7
  v54 : W9 (F := Ideal) m ρ c (Proc.devRef .tc main_v54) = val_main_v64 (F := Ideal) a0 a1 a3 a4 a5
  arg3 : W9 (F := Ideal) m ρ c (Proc.devRef .tc main_arg3) = a3

end Cert.KernelIdeal.Stages
end
-- ==== Proof.StagesA.lean ====
/-
  The opening stretch of the idealized kernel program, read back: from the launch memory to the entry of the first
  projection. Stated boundary by boundary, each buffer as the reference's stage of the same operations.
-/
import proofs.«153109_j7215545057454_1_alg».proof.Proof.Gen.KernelIdeal.Frame
import proofs.«153109_j7215545057454_1_alg».proof.Proof.RefRead
import proofs.«153109_j7215545057454_1_alg».proof.Proof.LibColumn
import proofs.«153109_j7215545057454_1_alg».proof.Proof.Bounds
import Idealize.ShloMosaic.Lib.StableHlo.Run
import Idealize.ShloMosaic.PureOps.Ideal

set_option maxRecDepth 16384
set_option quotPrecheck false
noncomputable section
namespace Cert.KernelIdeal.Stages
open Cert.ReferenceIdeal.Read
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## Before the first projection

The two edge lists (sources, targets), the inverse square root of the degree (targets counted, plus the self loop's two),
the product of that factor at an edge's two ends, the doubled square of the factor per node as a column, and the two
halves of the first weight matrix — each is the reference's own stage of the same name, operation for operation. -/

theorem w1_v1 : W1 (F := Ideal) m ρ c (Proc.devRef .tc main_v1) = val_main_v1 (F := Ideal) a1 := by
  show StableHlo.after hostOps0 (W0 m ρ c) _ = _
  after_results_simp
  try rfl

theorem w1_v3 : W1 (F := Ideal) m ρ c (Proc.devRef .tc main_v3) = val_main_v3 (F := Ideal) a1 := by
  show StableHlo.after hostOps0 (W0 m ρ c) _ = _
  after_results_simp
  try rfl

theorem w1_v11 : W1 (F := Ideal) m ρ c (Proc.devRef .tc main_v11) = val_main_v13 (F := Ideal) a1 := by
  show StableHlo.after hostOps0 (W0 m ρ c) _ = _
  after_results_simp
  try rfl

theorem w1_v12 : W1 (F := Ideal) m ρ c (Proc.devRef .tc main_v12) = val_main_v14 (F := Ideal) a1 := by
  show StableHlo.after hostOps0 (W0 m ρ c) _ = _
  after_results_simp
  try rfl

theorem w1_cst3 : W1 (F := Ideal) m ρ c (Proc.devRef .tc main_cst_3) = val_main_cst_3 (F := Ideal) := by
  show StableHlo.after hostOps0 (W0 m ρ c) _ = _
  after_results_simp
  try rfl

theorem w1_a0 : W1 (F := Ideal) m ρ c (Proc.devRef .tc main_arg0) = a0 := by
  show StableHlo.after hostOps0 (W0 m ρ c) _ = _
  after_results_simp
  try rfl

theorem w1_a3 : W1 (F := Ideal) m ρ c (Proc.devRef .tc main_arg3) = a3 := by
  show StableHlo.after hostOps0 (W0 m ρ c) _ = _
  after_results_simp
  try rfl

theorem w1_a4 : W1 (F := Ideal) m ρ c (Proc.devRef .tc main_arg4) = a4 := by
  show StableHlo.after hostOps0 (W0 m ρ c) _ = _
  after_results_simp
  try rfl

theorem w1_a5 : W1 (F := Ideal) m ρ c (Proc.devRef .tc main_arg5) = a5 := by
  show StableHlo.after hostOps0 (W0 m ρ c) _ = _
  after_results_simp
  try rfl

theorem w1_a6 : W1 (F := Ideal) m ρ c (Proc.devRef .tc main_arg6) = a6 := by
  show StableHlo.after hostOps0 (W0 m ρ c) _ = _
  after_results_simp
  try rfl

theorem w1_a7 : W1 (F := Ideal) m ρ c (Proc.devRef .tc main_arg7) = a7 := by
  show StableHlo.after hostOps0 (W0 m ρ c) _ = _
  after_results_simp
  try rfl

/-- The inverse square root of the degree where the degree is positive, zero elsewhere: the outlined select reads
    the comparison, the root and the zero it is handed, exactly as the reference's. -/
theorem w2_v13 : W2 (F := Ideal) m ρ c (Proc.devRef .tc main_v13) = val_main_v15 (F := Ideal) a1 := by
  have h0 := w1_v11 m ρ c
  have h1 := w1_v12 m ρ c
  have h2 := w1_cst3 m ρ c
  show StableHlo.after hostOps0_1 (W1 m ρ c) _ = _
  generalize W1 m ρ c = V at h0 h1 h2 ⊢
  after_results_simp
  show select (V (Proc.devRef .tc main_v11)) (V (Proc.devRef .tc main_v12))
      (broadcastInDim S50000 ![] bcast_S_S50000 (id (V (Proc.devRef .tc main_cst_3)))) = _
  rw [h0, h1, h2]
  rfl

theorem w2_v1 : W2 (F := Ideal) m ρ c (Proc.devRef .tc main_v1) = val_main_v1 (F := Ideal) a1 := by
  have h0 := w1_v1 m ρ c
  show StableHlo.after hostOps0_1 (W1 m ρ c) _ = _
  generalize W1 m ρ c = V at h0 ⊢
  after_results_simp
  rw [h0]
  try rfl

theorem w2_v3 : W2 (F := Ideal) m ρ c (Proc.devRef .tc main_v3) = val_main_v3 (F := Ideal) a1 := by
  have h0 := w1_v3 m ρ c
  show StableHlo.after hostOps0_1 (W1 m ρ c) _ = _
  generalize W1 m ρ c = V at h0 ⊢
  after_results_simp
  rw [h0]
  try rfl

theorem w2_a0 : W2 (F := Ideal) m ρ c (Proc.devRef .tc main_arg0) = a0 := by
  have h0 := w1_a0 m ρ c
  show StableHlo.after hostOps0_1 (W1 m ρ c) _ = _
  generalize W1 m ρ c = V at h0 ⊢
  after_results_simp
  rw [h0]
  try rfl

theorem w2_a3 : W2 (F := Ideal) m ρ c (Proc.devRef .tc main_arg3) = a3 := by
  have h0 := w1_a3 m ρ c
  show StableHlo.after hostOps0_1 (W1 m ρ c) _ = _
  generalize W1 m ρ c = V at h0 ⊢
  after_results_simp
  rw [h0]
  try rfl

theorem w2_a4 : W2 (F := Ideal) m ρ c (Proc.devRef .tc main_arg4) = a4 := by
  have h0 := w1_a4 m ρ c
  show StableHlo.after hostOps0_1 (W1 m ρ c) _ = _
  generalize W1 m ρ c = V at h0 ⊢
  after_results_simp
  rw [h0]
  try rfl

theorem w2_a5 : W2 (F := Ideal) m ρ c (Proc.devRef .tc main_arg5) = a5 := by
  have h0 := w1_a5 m ρ c
  show StableHlo.after hostOps0_1 (W1 m ρ c) _ = _
  generalize W1 m ρ c = V at h0 ⊢
  after_results_simp
  rw [h0]
  try rfl

theorem w2_a6 : W2 (F := Ideal) m ρ c (Proc.devRef .tc main_arg6) = a6 := by
  have h0 := w1_a6 m ρ c
  show StableHlo.after hostOps0_1 (W1 m ρ c) _ = _
  generalize W1 m ρ c = V at h0 ⊢
  after_results_simp
  rw [h0]
  try rfl

theorem w2_a7 : W2 (F := Ideal) m ρ c (Proc.devRef .tc main_arg7) = a7 := by
  have h0 := w1_a7 m ρ c
  show StableHlo.after hostOps0_1 (W1 m ρ c) _ = _
  generalize W1 m ρ c = V at h0 ⊢
  after_results_simp
  rw [h0]
  try rfl

theorem w3_v28 : W3 (F := Ideal) m ρ c (Proc.devRef .tc main_v28) = val_main_v30 (F := Ideal) a1 := by
  have h0 := w2_v13 m ρ c
  have h1 := w2_v1 m ρ c
  have h2 := w2_v3 m ρ c
  show StableHlo.after hostOps0_2 (W2 m ρ c) _ = _
  generalize W2 m ρ c = V at h0 h1 h2 ⊢
  after_results_simp
  rw [h0, h1, h2]
  try rfl

/-- The per-node factor as a column: the program casts the vector to one column where the reference spreads it along
    the rows into one column; the two are one array. -/
theorem w3_v32 : W3 (F := Ideal) m ρ c (Proc.devRef .tc main_v32) = val_main_v47 (F := Ideal) a1 := by
  have h0 := w2_v13 m ρ c
  show StableHlo.after hostOps0_2 (W2 m ρ c) _ = _
  generalize W2 m ρ c = V at h0 ⊢
  after_results_simp
  rw [h0]
  exact (Cert.LibColumn.shapeCast_col_eq_broadcastInDim _ _ Cert.ReferenceIdeal.Facts₀.bcast_S50000_S50000x1_0).trans rfl

theorem w3_v33 : W3 (F := Ideal) m ρ c (Proc.devRef .tc main_v33) = extractStridedSlice S64x128 ![0, 0] a4 slices_S128x128_S64x128_0_0 := by
  have h0 := w2_a4 m ρ c
  show StableHlo.after hostOps0_2 (W2 m ρ c) _ = _
  generalize W2 m ρ c = V at h0 ⊢
  after_results_simp
  rw [h0]
  try rfl

theorem w3_v34 : W3 (F := Ideal) m ρ c (Proc.devRef .tc main_v34) = extractStridedSlice S64x128 ![64, 0] a4 slices_S128x128_S64x128_64_0 := by
  have h0 := w2_a4 m ρ c
  show StableHlo.after hostOps0_2 (W2 m ρ c) _ = _
  generalize W2 m ρ c = V at h0 ⊢
  after_results_simp
  rw [h0]
  try rfl

theorem w3_v1 : W3 (F := Ideal) m ρ c (Proc.devRef .tc main_v1) = val_main_v1 (F := Ideal) a1 := by
  have h0 := w2_v1 m ρ c
  show StableHlo.after hostOps0_2 (W2 m ρ c) _ = _
  generalize W2 m ρ c = V at h0 ⊢
  after_results_simp
  rw [h0]
  try rfl

theorem w3_v3 : W3 (F := Ideal) m ρ c (Proc.devRef .tc main_v3) = val_main_v3 (F := Ideal) a1 := by
  have h0 := w2_v3 m ρ c
  show StableHlo.after hostOps0_2 (W2 m ρ c) _ = _
  generalize W2 m ρ c = V at h0 ⊢
  after_results_simp
  rw [h0]
  try rfl

theorem w3_a0 : W3 (F := Ideal) m ρ c (Proc.devRef .tc main_arg0) = a0 := by
  have h0 := w2_a0 m ρ c
  show StableHlo.after hostOps0_2 (W2 m ρ c) _ = _
  generalize W2 m ρ c = V at h0 ⊢
  after_results_simp
  rw [h0]
  try rfl

theorem w3_a3 : W3 (F := Ideal) m ρ c (Proc.devRef .tc main_arg3) = a3 := by
  have h0 := w2_a3 m ρ c
  show StableHlo.after hostOps0_2 (W2 m ρ c) _ = _
  generalize W2 m ρ c = V at h0 ⊢
  after_results_simp
  rw [h0]
  try rfl

theorem w3_a5 : W3 (F := Ideal) m ρ c (Proc.devRef .tc main_arg5) = a5 := by
  have h0 := w2_a5 m ρ c
  show StableHlo.after hostOps0_2 (W2 m ρ c) _ = _
  generalize W2 m ρ c = V at h0 ⊢
  after_results_simp
  rw [h0]
  try rfl

theorem w3_a6 : W3 (F := Ideal) m ρ c (Proc.devRef .tc main_arg6) = a6 := by
  have h0 := w2_a6 m ρ c
  show StableHlo.after hostOps0_2 (W2 m ρ c) _ = _
  generalize W2 m ρ c = V at h0 ⊢
  after_results_simp
  rw [h0]
  try rfl

theorem w3_a7 : W3 (F := Ideal) m ρ c (Proc.devRef .tc main_arg7) = a7 := by
  have h0 := w2_a7 m ρ c
  show StableHlo.after hostOps0_2 (W2 m ρ c) _ = _
  generalize W2 m ρ c = V at h0 ⊢
  after_results_simp
  rw [h0]
  try rfl

/-- Everything the first projection and the later steps read, on entering the first projection. -/
theorem at3 : At3 m ρ c :=
  ⟨w3_v1 m ρ c, w3_v3 m ρ c, w3_v28 m ρ c, w3_v32 m ρ c, w3_v33 m ρ c, w3_v34 m ρ c,
   w3_a0 m ρ c, w3_a3 m ρ c, w3_a5 m ρ c, w3_a6 m ρ c, w3_a7 m ρ c⟩

end Cert.KernelIdeal.Stages
end
-- ==== Proof.Spec.lean ====
/-
  The four dense stages of the cell, each as one function of whole arrays, entry by entry, on the
  extended reals.

  * `proj128`, `proj64`: a row of `a` against a column of `wa` plus the same row of `b` against the
    column of `wb` — the product of the row `[a | b]` with the stacked matrix `[wa ; wb]`, written as its
    two halves.
  * `gate`: the logistic function of  agg + xw · s + bias,  where `s` is one number per row (a column
    array) and `bias` one number per column.
  * `combine`: the convex-style update  u · h + (1 − u) · tanh (agg + xw · s + bias).
-/
import Idealize.ShloMosaic.PureOps.Ideal
import Idealize.ShloMosaic.Lib.ValueIdx

noncomputable section

namespace Cert.Spec

open Idealize.ShloMosaic Idealize.ShloMosaic.ValueIdx

/-- Entry (r, j) of  a · wa + b · wb  with 64 contracted channels on each side and 128 output channels. -/
def proj128 (a b : (⟨2, ![50000, 64]⟩ : Shape).Idx → EReal) (wa wb : (⟨2, ![64, 128]⟩ : Shape).Idx → EReal) :
    (⟨2, ![50000, 128]⟩ : Shape).Idx → EReal :=
  fun i => (∑ k : Fin 64, a (ix2 (i 0) k) * wa (ix2 k (i 1))) + ∑ k : Fin 64, b (ix2 (i 0) k) * wb (ix2 k (i 1))

/-- Entry (r, j) of  a · wa + b · wb  with 64 contracted channels on each side and 64 output channels. -/
def proj64 (a b : (⟨2, ![50000, 64]⟩ : Shape).Idx → EReal) (wa wb : (⟨2, ![64, 64]⟩ : Shape).Idx → EReal) :
    (⟨2, ![50000, 64]⟩ : Shape).Idx → EReal :=
  fun i => (∑ k : Fin 64, a (ix2 (i 0) k) * wa (ix2 k (i 1))) + ∑ k : Fin 64, b (ix2 (i 0) k) * wb (ix2 k (i 1))

/-- Entry (r, j) of the gate: logistic (agg(r,j) + xw(r,j) · s(r) + bias(j)). -/
def gate (agg xw : (⟨2, ![50000, 128]⟩ : Shape).Idx → EReal) (s : (⟨2, ![50000, 1]⟩ : Shape).Idx → EReal)
    (bias : (⟨1, ![128]⟩ : Shape).Idx → EReal) : (⟨2, ![50000, 128]⟩ : Shape).Idx → EReal :=
  fun i => Ideal.logistic (agg i + xw i * s (ix2 (i 0) (0 : Fin 1)) + bias (ix1 (i 1)))

/-- Entry (r, j) of the update: u · h + (1 − u) · tanh (agg + xw · s(r) + bias(j)); the constant one is kept as
    the single-precision word both programs spell. -/
def combine (agg xw : (⟨2, ![50000, 64]⟩ : Shape).Idx → EReal) (s : (⟨2, ![50000, 1]⟩ : Shape).Idx → EReal)
    (bias : (⟨1, ![64]⟩ : Shape).Idx → EReal) (u h : (⟨2, ![50000, 64]⟩ : Shape).Idx → EReal) :
    (⟨2, ![50000, 64]⟩ : Shape).Idx → EReal :=
  fun i => u i * h i
    + (Ideal.ofBits .f32 0x3F800000#32 - u i) * Ideal.tanh (agg i + xw i * s (ix2 (i 0) (0 : Fin 1)) + bias (ix1 (i 1)))

end Cert.Spec

end
-- ==== Proof.Project.lean ====
import proofs.«153109_j7215545057454_1_alg».proof.Proof.Gen.KernelIdeal.Frame
import proofs.«153109_j7215545057454_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

/-!
  The two projection stages, from the row blocks the grid writes back to the whole output arrays.

  Each of the ten points takes 5000 rows of the two data arrays and the two weight matrices whole, and writes
  back the 5000 rows of  a · wa + b · wb : each product contracts 64 channels into a zero accumulator, and the
  roundings on the way in are the identity on the ideal values. Entry (p, q) of a block is therefore the two
  64-term sums of the specification at row  t · 5000 + p  and column q; the ten blocks tile the rows, so the
  output array is the specification's function.
-/

noncomputable section

namespace Cert.KernelIdeal.Project

open Cert.KernelIdeal Cert.KernelIdeal.Gen Idealize.ShloMosaic Idealize.ShloMosaic.TcCoe Idealize.ShloMosaic.ValueIdx Idealize.SL.Sem
open Idealize.ShloMosaic.Pipeline (Dat)

/-! ## One block product at an entry -/

/-- The contraction of the 5000×64 by 64×128 product has one axis of 64 positions; the left operand is read at
    (row, position) and the right operand at (position, column). -/
theorem lhs128_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs128_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs128_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs128_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A block product into the zero accumulator, at entry (p, q): the sum over the 64 contracted channels. -/
theorem mm128_apply (a : FVec Ideal S5000x64 .bf16) (b : FVec Ideal S64x128 .bf16) (p : Fin 5000) (q : Fin 128) :
    (matmul dot_S5000x64_S64x128_S5000x128_1_0_0_1_n_n none a b (constant (F := Ideal) S5000x128 .f32 0x00000000#32) : FVec Ideal S5000x128 .f32) (ix2 p q)
      = ∑ k : Fin 64, a (ix2 p k) * b (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs128_0 _ _
    | ⟨1, _⟩ => exact (lhs128_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs128_0 _ _).trans hk
    | ⟨1, _⟩ => exact rhs128_1 _ _)
  rw [el, er]

/-- The body's payload at entry (p, q) of its block: the two 64-channel sums, added. Rounding to the narrow
    format is the identity on the ideal values, and the casts are to the same shape. -/
theorem pay128_apply (x0 x1 : Vec Ideal S5000x64 .f32) (x2 x3 : Vec Ideal S64x128 .f32) (p : Fin 5000) (q : Fin 128) :
    k0_pay1 x0 x1 x2 x3 (ix2 p q)
      = (∑ k : Fin 64, x0 (ix2 p k) * x2 (ix2 k q)) + ∑ k : Fin 64, x1 (ix2 p k) * x3 (ix2 k q) := by
  unfold k0_pay1
  simp only [shapeCast_self]
  refine (congrArg₂ (· + ·) (mm128_apply _ _ p q) (mm128_apply _ _ p q)).trans ?_
  rfl

/-! ## From the blocks to the whole array: 128 output channels -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the ten points: the row blocks of the two data operands move with the output's
    row block, which is the point's number; the weights are read whole; nothing moves along the columns. -/
theorem index_maps128 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the whole-array projection of the arrays the region finds. -/
theorem flushed128_eq (c : Dev nD) (t : Fin cfg0.N) :
    (dat0 (F := Ideal) V c).flushed 4 t
      = ((cfg0.win 4).blk t).view.read (Elt Ideal) (Cert.Spec.proj128 (V c main_arg0) (V c main_arg3) (V c main_v33) (V c main_v34)) := by
  show (cfg0.win 4).cut (grid0.coords t) ((dat0 V c).after 4 t) = _
  rw [after0_4]
  unfold out0_4
  rw [View.canon_unit_zero zero_offsets]
  simp only [View.ld_unit_zero (S := S5000x64) zero_offsets, View.ld_unit_zero (S := S64x128) zero_offsets]
  obtain ⟨e00, e01, e10, e11, e20, e21, e30, e31, e40, e41⟩ := index_maps128 t
  funext j
  obtain ⟨p, q, rfl⟩ : ∃ (p : Fin 5000) (q : Fin 128), j = ix2 p q := ⟨j 0, j 1, eq_ix2 j⟩
  refine (pay128_apply _ _ _ _ p q).trans ?_
  show _ = Cert.Spec.proj128 _ _ _ _ (((cfg0.win 4).blk t).view.emb (ix2 p q))
  unfold Cert.Spec.proj128
  have h0 : ∀ k : Fin 64, iblk0 V c 0 t (ix2 p k) = V c main_arg0 (ix2 ((((cfg0.win 4).blk t).view.emb (ix2 p q)) 0) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  have h1 : ∀ k : Fin 64, iblk0 V c 1 t (ix2 p k) = V c main_arg3 (ix2 ((((cfg0.win 4).blk t).view.emb (ix2 p q)) 0) k) := fun k => by
    show V c main_arg3 (((cfg0.win 1).blk t).view.emb (ix2 p k)) = _
    refine congrArg _ (funext fun a => Fin.ext ?_)
    match a with
    | ⟨0, _⟩ => show win0_1.index t (0 : Fin 2) * 5000 + 1 * p.val = win0_4.index t (0 : Fin 2) * 5000 + 1 * p.val; omega
    | ⟨1, _⟩ => show win0_1.index t (1 : Fin 2) * 64 + 1 * k.val = k.val; omega
  have h2 : ∀ k : Fin 64, iblk0 V c 2 t (ix2 k q) = V c main_v33 (ix2 k ((((cfg0.win 4).blk t).view.emb (ix2 p q)) 1)) := fun k => by
    show V c main_v33 (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * q.val = win0_4.index t (1 : Fin 2) * 128 + 1 * q.val; omega
  have h3 : ∀ k : Fin 64, iblk0 V c 3 t (ix2 k q) = V c main_v34 (ix2 k ((((cfg0.win 4).blk t).view.emb (ix2 p q)) 1)) := fun k => by
    show V c main_v34 (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = win0_4.index t (1 : Fin 2) * 128 + 1 * q.val; omega
  exact congrArg₂ (· + ·) (Finset.sum_congr rfl fun k _ => congrArg₂ (· * ·) (h0 k) (h2 k))
    (Finset.sum_congr rfl fun k _ => congrArg₂ (· * ·) (h1 k) (h3 k))

/-- An index of the output array is in point t's block iff each coordinate is in the block's range on its axis. -/
theorem mem_blk128 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v35).slice (win0_4.rect t)).set ↔ _
  rw [View.set_slice_whole, Rect.mem_set_unit]
  exact Iff.rfl

/-- Every entry of the output array is written back by some point: row r by point r / 5000. -/
theorem cover128 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e00, e01, e10, e11, e20, e21, e30, e31, e40, e41⟩ := index_maps128 t
  refine ⟨t, flush0_4 t, ?_⟩
  rw [mem_blk128]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The first projection's output array after the run: the 128-channel projection of the arrays the region finds. -/
theorem final0 (c : Dev nD) :
    (dat0 (F := Ideal) V c).arrAt 4 cfg0.N
      = Cert.Spec.proj128 (V c main_arg0) (V c main_arg3) (V c main_v33) (V c main_v34) :=
  (dat0 V c).arrAt_eq_of_cover 4 _ (fun t _ => flushed128_eq V c t) cover128

/-! # The second projection: 64 output channels -/

/-! ## The 64-column block product at an entry -/

/-- The contraction of the 5000×64 by 64×64 product has one axis of 64 positions; the left operand is read at
    (row, position) and the right operand at (position, column). -/
theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero accumulator, at entry (p, q): the sum over the 64 contracted channels. -/
theorem mm64_apply (a : FVec Ideal S5000x64 .bf16) (b : FVec Ideal S64x64 .bf16) (p : Fin 5000) (q : Fin 64) :
    (matmul dot_S5000x64_S64x64_S5000x64_1_0_0_1_n_n none a b (constant (F := Ideal) S5000x64 .f32 0x00000000#32) : FVec Ideal S5000x64 .f32) (ix2 p q)
      = ∑ k : Fin 64, a (ix2 p k) * b (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The body's payload at entry (p, q) of its block: the two 64-channel sums, added. Rounding to the narrow
    format is the identity on the ideal values, and the casts are to the same shape. -/
theorem pay64_apply (x0 x1 : Vec Ideal S5000x64 .f32) (x2 x3 : Vec Ideal S64x64 .f32) (p : Fin 5000) (q : Fin 64) :
    k2_pay1 x0 x1 x2 x3 (ix2 p q)
      = (∑ k : Fin 64, x0 (ix2 p k) * x2 (ix2 k q)) + ∑ k : Fin 64, x1 (ix2 p k) * x3 (ix2 k q) := by
  unfold k2_pay1
  simp only [shapeCast_self]
  refine (congrArg₂ (· + ·) (mm64_apply _ _ p q) (mm64_apply _ _ p q)).trans ?_
  rfl

/-! ## From the blocks to the whole array: 64 output channels -/

/-- The index maps, decided over the ten points: the row blocks of the two data operands move with the output's
    row block, which is the point's number; the weights are read whole; nothing moves along the columns. -/
theorem index_maps64 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the whole-array projection of the arrays the region finds. -/
theorem flushed64_eq (c : Dev nD) (t : Fin cfg2.N) :
    (dat2 (F := Ideal) V c).flushed 4 t
      = ((cfg2.win 4).blk t).view.read (Elt Ideal) (Cert.Spec.proj64 (V c main_arg0) (V c main_v55) (V c main_v56) (V c main_v57)) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S64x64) zero_offsets]
  obtain ⟨e00, e01, e10, e11, e20, e21, e30, e31, e40, e41⟩ := index_maps64 t
  funext j
  obtain ⟨p, q, rfl⟩ : ∃ (p : Fin 5000) (q : Fin 64), j = ix2 p q := ⟨j 0, j 1, eq_ix2 j⟩
  refine (pay64_apply _ _ _ _ p q).trans ?_
  show _ = Cert.Spec.proj64 _ _ _ _ (((cfg2.win 4).blk t).view.emb (ix2 p q))
  unfold Cert.Spec.proj64
  have h0 : ∀ k : Fin 64, iblk2 V c 0 t (ix2 p k) = V c main_arg0 (ix2 ((((cfg2.win 4).blk t).view.emb (ix2 p q)) 0) k) := fun k => by
    show V c main_arg0 (((cfg2.win 0).blk t).view.emb (ix2 p k)) = _
    refine congrArg _ (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * k.val = k.val; omega
  have h1 : ∀ k : Fin 64, iblk2 V c 1 t (ix2 p k) = V c main_v55 (ix2 ((((cfg2.win 4).blk t).view.emb (ix2 p q)) 0) k) := fun k => by
    show V c main_v55 (((cfg2.win 1).blk t).view.emb (ix2 p k)) = _
    refine congrArg _ (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 64 + 1 * k.val = k.val; omega
  have h2 : ∀ k : Fin 64, iblk2 V c 2 t (ix2 k q) = V c main_v56 (ix2 k ((((cfg2.win 4).blk t).view.emb (ix2 p q)) 1)) := fun k => by
    show V c main_v56 (((cfg2.win 2).blk t).view.emb (ix2 k q)) = _
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * q.val = win2_4.index t (1 : Fin 2) * 64 + 1 * q.val; omega
  have h3 : ∀ k : Fin 64, iblk2 V c 3 t (ix2 k q) = V c main_v57 (ix2 k ((((cfg2.win 4).blk t).view.emb (ix2 p q)) 1)) := fun k => by
    show V c main_v57 (((cfg2.win 3).blk t).view.emb (ix2 k q)) = _
    refine congrArg _ (funext fun a => Fin.ext ?_)
    match a with
    | ⟨0, _⟩ => show win2_3.index t (0 : Fin 2) * 64 + 1 * k.val = k.val; omega
    | ⟨1, _⟩ => show win2_3.index t (1 : Fin 2) * 64 + 1 * q.val = win2_4.index t (1 : Fin 2) * 64 + 1 * q.val; omega
  exact congrArg₂ (· + ·) (Finset.sum_congr rfl fun k _ => congrArg₂ (· * ·) (h0 k) (h2 k))
    (Finset.sum_congr rfl fun k _ => congrArg₂ (· * ·) (h1 k) (h3 k))

/-- An index of the output array is in point t's block iff each coordinate is in the block's range on its axis. -/
theorem mem_blk64 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v58).slice (win2_4.rect t)).set ↔ _
  rw [View.set_slice_whole, Rect.mem_set_unit]
  exact Iff.rfl

/-- Every entry of the output array is written back by some point: row r by point r / 5000. -/
theorem cover64 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨e00, e01, e10, e11, e20, e21, e30, e31, e40, e41⟩ := index_maps64 t
  refine ⟨t, flush2_4 t, ?_⟩
  rw [mem_blk64]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The second projection's output array after the run: the 64-channel projection of the arrays the region finds. -/
theorem final2 (c : Dev nD) :
    (dat2 (F := Ideal) V c).arrAt 4 cfg2.N
      = Cert.Spec.proj64 (V c main_arg0) (V c main_v55) (V c main_v56) (V c main_v57) :=
  (dat2 V c).arrAt_eq_of_cover 4 _ (fun t _ => flushed64_eq V c t) cover64

end Cert.KernelIdeal.Project

end
-- ==== Proof.Halves.lean ====
import proofs.«153109_j7215545057454_1_alg».proof.Proof.Gen.KernelIdeal
import Idealize.ShloMosaic.Lib.Pipeline.Value
import Idealize.ShloMosaic.Lib.ValueIdx

/-!
  The two weight matrices arrive stacked, 128 rows each; the program cuts each into its upper and its lower
  64 rows. Row k of the upper half is row k of the stack, row k of the lower half is row k + 64; the columns
  are untouched.
-/

noncomputable section

namespace Cert.KernelIdeal.Halves

open Cert.KernelIdeal Cert.KernelIdeal.Gen Idealize.ShloMosaic Idealize.ShloMosaic.ValueIdx Idealize.SL.Sem

/-- Rows 0 … 63 of the 128×128 stack: entry (k, j) is the stack's entry (k, j). -/
theorem upper128 (x4 : Vec Ideal S128x128 .f32) (k : Fin 64) (j : Fin 128) :
    extractStridedSlice S64x128 ![0, 0] x4 slices_S128x128_S64x128_0_0 (ix2 k j) = x4 (ix2 (⟨k.val, by omega⟩ : Fin 128) j) :=
  extractStridedSlice_apply ![0, 0] x4 slices_S128x128_S64x128_0_0 (ix2 k j) _ (fun a => match a with
    | ⟨0, _⟩ => by show k.val = 0 + k.val; omega
    | ⟨1, _⟩ => by show j.val = 0 + j.val; omega)

/-- Rows 64 … 127 of the 128×128 stack: entry (k, j) is the stack's entry (k + 64, j). -/
theorem lower128 (x4 : Vec Ideal S128x128 .f32) (k : Fin 64) (j : Fin 128) :
    extractStridedSlice S64x128 ![64, 0] x4 slices_S128x128_S64x128_64_0 (ix2 k j) = x4 (ix2 (⟨k.val + 64, by omega⟩ : Fin 128) j) :=
  extractStridedSlice_apply ![64, 0] x4 slices_S128x128_S64x128_64_0 (ix2 k j) _ (fun a => match a with
    | ⟨0, _⟩ => by show k.val + 64 = 64 + k.val; omega
    | ⟨1, _⟩ => by show j.val = 0 + j.val; omega)

/-- Rows 0 … 63 of the 128×64 stack: entry (k, j) is the stack's entry (k, j). -/
theorem upper64 (x6 : Vec Ideal S128x64 .f32) (k j : Fin 64) :
    extractStridedSlice S64x64 ![0, 0] x6 slices_S128x64_S64x64_0_0 (ix2 k j) = x6 (ix2 (⟨k.val, by omega⟩ : Fin 128) j) :=
  extractStridedSlice_apply ![0, 0] x6 slices_S128x64_S64x64_0_0 (ix2 k j) _ (fun a => match a with
    | ⟨0, _⟩ => by show k.val = 0 + k.val; omega
    | ⟨1, _⟩ => by show j.val = 0 + j.val; omega)

/-- Rows 64 … 127 of the 128×64 stack: entry (k, j) is the stack's entry (k + 64, j). -/
theorem lower64 (x6 : Vec Ideal S128x64 .f32) (k j : Fin 64) :
    extractStridedSlice S64x64 ![64, 0] x6 slices_S128x64_S64x64_64_0 (ix2 k j) = x6 (ix2 (⟨k.val + 64, by omega⟩ : Fin 128) j) :=
  extractStridedSlice_apply ![64, 0] x6 slices_S128x64_S64x64_64_0 (ix2 k j) _ (fun a => match a with
    | ⟨0, _⟩ => by show k.val + 64 = 64 + k.val; omega
    | ⟨1, _⟩ => by show j.val = 0 + j.val; omega)

end Cert.KernelIdeal.Halves

end
-- ==== Proof.ProjectRef.lean ====
import proofs.«153109_j7215545057454_1_alg».proof.Proof.RefRead
import proofs.«153109_j7215545057454_1_alg».proof.Proof.Spec

/-!
  The reference computes each projection as ONE product: the row  [a | b]  of 128 channels against the
  stacked 128-row weight matrix. A sum over 128 channels is the sum over the first 64 plus the sum over the
  last 64; the first 64 channels of the joined row are a's and meet the upper half of the stack, the last
  64 are b's and meet the lower half. So the one product is the specification's two half products, added.
  This is a law of any commutative additive monoid: no finiteness is used.
-/

noncomputable section

namespace Cert.ReferenceIdeal.ProjectRef

open Cert.ReferenceIdeal Cert.ReferenceIdeal.Gen Idealize.ShloMosaic Idealize.ShloMosaic.ValueIdx Idealize.SL.Sem

/-- A sum over 128 positions is the sum over positions k plus the sum over positions k + 64, k below 64. -/
theorem sum_halves (f : Fin 128 → EReal) :
    ∑ k : Fin 128, f k = (∑ k : Fin 64, f ⟨k.val, by omega⟩) + ∑ k : Fin 64, f ⟨k.val + 64, by omega⟩ := by
  refine (Fin.sum_univ_add (a := 64) (b := 64) f).trans ?_
  refine congrArg₂ (· + ·) (Finset.sum_congr rfl fun k _ => congrArg f (Fin.ext ?_))
    (Finset.sum_congr rfl fun k _ => congrArg f (Fin.ext ?_))
  · rfl
  · show 64 + k.val = k.val + 64
    omega

/-- The joined row  [a | b]  at a channel below 64 is a's entry. -/
theorem joined_left (a b : (⟨S50000x64, .f32⟩ : BufTy).Contents (Elt Ideal)) (r : Fin 50000) (k : Fin 64) :
    concatenate S50000x128 1 [⟨S50000x64, a⟩, ⟨S50000x64, b⟩] concatenates_S50000x64_S50000x64_S50000x128_d1
        (ix2 r (⟨k.val, by omega⟩ : Fin 128)) = a (ix2 r k) :=
  concatenate_pair_apply_left (1 : Fin S50000x128.rank) a b concatenates_S50000x64_S50000x64_S50000x128_d1 _ rfl (ix2 r k)
    (fun d => match d with
      | ⟨0, _⟩ => rfl
      | ⟨1, _⟩ => rfl)

/-- The joined row  [a | b]  at channel k + 64 is b's entry at channel k. -/
theorem joined_right (a b : (⟨S50000x64, .f32⟩ : BufTy).Contents (Elt Ideal)) (r : Fin 50000) (k : Fin 64) :
    concatenate S50000x128 1 [⟨S50000x64, a⟩, ⟨S50000x64, b⟩] concatenates_S50000x64_S50000x64_S50000x128_d1
        (ix2 r (⟨k.val + 64, by omega⟩ : Fin 128)) = b (ix2 r k) :=
  concatenate_pair_apply_right (1 : Fin S50000x128.rank) a b concatenates_S50000x64_S50000x64_S50000x128_d1 _ rfl rfl (ix2 r k)
    (fun d hd => match d, hd with
      | ⟨0, _⟩, _ => rfl
      | ⟨1, _⟩, hd => absurd (Fin.ext rfl) hd)
    rfl

/-- The product of the joined rows with a stacked 128-row matrix of n columns, entry by entry: the two half
    products, added. Stated over the entry's operand reads, so that it serves both stacks. -/
theorem joined_product (a b : (⟨S50000x64, .f32⟩ : BufTy).Contents (Elt Ideal)) (r : Fin 50000) (w : Fin 128 → EReal) :
    ∑ k : Fin 128, concatenate S50000x128 1 [⟨S50000x64, a⟩, ⟨S50000x64, b⟩] concatenates_S50000x64_S50000x64_S50000x128_d1 (ix2 r k) * w k
      = (∑ k : Fin 64, a (ix2 r k) * w ⟨k.val, by omega⟩) + ∑ k : Fin 64, b (ix2 r k) * w ⟨k.val + 64, by omega⟩ := by
  refine (sum_halves _).trans ?_
  exact congrArg₂ (· + ·)
    (Finset.sum_congr rfl fun k _ => congrArg (· * w ⟨k.val, by omega⟩) (joined_left a b r k))
    (Finset.sum_congr rfl fun k _ => congrArg (· * w ⟨k.val + 64, by omega⟩) (joined_right a b r k))

/-! ## The two projections -/

/-- The reference's operand reads of the 128-column product are (row, channel) and (channel, column). -/
theorem lidx128 (i : S50000x128.Idx) (k : Fin 128) : Read.lidx_main_v5 i k = ix2 (i 0) k :=
  funext fun a => match a with
    | ⟨0, _⟩ => rfl
    | ⟨1, _⟩ => rfl
theorem ridx128 (i : S50000x128.Idx) (k : Fin 128) : Read.ridx_main_v5 i k = ix2 k (i 1) :=
  funext fun a => match a with
    | ⟨0, _⟩ => rfl
    | ⟨1, _⟩ => rfl

/-- The reference's operand reads of the 64-column product are (row, channel) and (channel, column). -/
theorem lidx64 (i : S50000x64.Idx) (k : Fin 128) : Read.lidx_main_v67 i k = ix2 (i 0) k :=
  funext fun a => match a with
    | ⟨0, _⟩ => rfl
    | ⟨1, _⟩ => rfl
theorem ridx64 (i : S50000x64.Idx) (k : Fin 128) : Read.ridx_main_v67 i k = ix2 k (i 1) :=
  funext fun a => match a with
    | ⟨0, _⟩ => rfl
    | ⟨1, _⟩ => rfl

/-- The 128-column projection: with wa the upper and wb the lower half of the stack x4, the specification's
    a · wa + b · wb  is the reference's  [a | b] · x4. -/
theorem proj128_ref (x0 x3 : (⟨S50000x64, .f32⟩ : BufTy).Contents (Elt Ideal)) (x4 : (⟨S128x128, .f32⟩ : BufTy).Contents (Elt Ideal))
    (wa wb : (⟨2, ![64, 128]⟩ : Shape).Idx → EReal)
    (hwa : ∀ (k : Fin 64) (j : Fin 128), wa (ix2 k j) = x4 (ix2 (⟨k.val, by omega⟩ : Fin 128) j))
    (hwb : ∀ (k : Fin 64) (j : Fin 128), wb (ix2 k j) = x4 (ix2 (⟨k.val + 64, by omega⟩ : Fin 128) j)) :
    Cert.Spec.proj128 x0 x3 wa wb = Read.val_main_v5 (F := Ideal) x0 x3 x4 := by
  funext i
  refine Eq.symm ((Read.val_main_v5_apply x0 x3 x4 i).trans ?_)
  unfold Read.val_main_v4
  simp only [lidx128, ridx128]
  refine (joined_product x0 x3 (i 0) (fun k => x4 (ix2 k (i 1)))).trans ?_
  unfold Cert.Spec.proj128
  exact congrArg₂ (· + ·)
    (Finset.sum_congr rfl fun k _ => congrArg (x0 (ix2 (i 0) k) * ·) (hwa k (i 1)).symm)
    (Finset.sum_congr rfl fun k _ => congrArg (x3 (ix2 (i 0) k) * ·) (hwb k (i 1)).symm)

/-- The 64-column projection, whose second operand b is itself an earlier stage of the reference (kept as one
    unopened term): with wa the upper and wb the lower half of the stack x6,  a · wa + b · wb  is  [a | b] · x6. -/
theorem proj64_ref (x0 : (⟨S50000x64, .f32⟩ : BufTy).Contents (Elt Ideal)) (x1 : (⟨S2x800000, .i32⟩ : BufTy).Contents (Elt Ideal)) (x3 : (⟨S50000x64, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal))
    (wa wb : (⟨2, ![64, 64]⟩ : Shape).Idx → EReal)
    (hwa : ∀ (k : Fin 64) (j : Fin 64), wa (ix2 k j) = x6 (ix2 (⟨k.val, by omega⟩ : Fin 128) j))
    (hwb : ∀ (k : Fin 64) (j : Fin 64), wb (ix2 k j) = x6 (ix2 (⟨k.val + 64, by omega⟩ : Fin 128) j)) :
    Cert.Spec.proj64 x0 (Read.val_main_v65 (F := Ideal) x0 x1 x3 x4 x5) wa wb = Read.val_main_v67 (F := Ideal) x0 x1 x3 x4 x5 x6 := by
  funext i
  refine Eq.symm ((Read.val_main_v67_apply x0 x1 x3 x4 x5 x6 i).trans ?_)
  unfold Read.val_main_v66
  generalize Read.val_main_v65 (F := Ideal) x0 x1 x3 x4 x5 = b
  simp only [lidx64, ridx64]
  refine (joined_product x0 b (i 0) (fun k => x6 (ix2 k (i 1)))).trans ?_
  unfold Cert.Spec.proj64
  exact congrArg₂ (· + ·)
    (Finset.sum_congr rfl fun k _ => congrArg (x0 (ix2 (i 0) k) * ·) (hwa k (i 1)).symm)
    (Finset.sum_congr rfl fun k _ => congrArg (b (ix2 (i 0) k) * ·) (hwb k (i 1)).symm)

end Cert.ReferenceIdeal.ProjectRef

end
-- ==== Proof.StagesB.lean ====
import proofs.«153109_j7215545057454_1_alg».proof.Proof.Gen.KernelIdeal.Frame
import proofs.«153109_j7215545057454_1_alg».proof.Proof.RefRead
import proofs.«153109_j7215545057454_1_alg».proof.Proof.LibColumn
import proofs.«153109_j7215545057454_1_alg».proof.Proof.Bounds
import proofs.«153109_j7215545057454_1_alg».proof.Proof.Project
import proofs.«153109_j7215545057454_1_alg».proof.Proof.Halves
import proofs.«153109_j7215545057454_1_alg».proof.Proof.ProjectRef
import Idealize.ShloMosaic.Lib.StableHlo.Run
import Idealize.ShloMosaic.PureOps.Ideal

set_option maxRecDepth 16384
set_option quotPrecheck false
noncomputable section
namespace Cert.KernelIdeal.Stages
open Cert.ReferenceIdeal.Read
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## Across the first projection

The stage writes one array, its output; its two data arrays and two weight halves it only reads, and every other
buffer it does not touch. The output is the 128-channel projection of what the stage found in its four input
arrays — the two data arguments and the upper and lower halves of the stacked weight matrix — and that is the
reference's one product of the joined rows with the whole stack. -/

/-- The first projection's output, as the reference's product of the joined rows with the stacked weights. -/
theorem w4_v35 (h : At3 m ρ c) : W4 (F := Ideal) m ρ c (Proc.devRef .tc main_v35) = val_main_v5 (F := Ideal) a0 a3 a4 := by
  refine (W4_arr m ρ c 4).trans ((Cert.KernelIdeal.Project.final0 (V3 m ρ) c).trans ?_)
  show Cert.Spec.proj128 (W3 m ρ c (Proc.devRef .tc main_arg0)) (W3 m ρ c (Proc.devRef .tc main_arg3))
    (W3 m ρ c (Proc.devRef .tc main_v33)) (W3 m ρ c (Proc.devRef .tc main_v34)) = _
  rw [h.arg0, h.arg3, h.v33, h.v34]
  exact Cert.ReferenceIdeal.ProjectRef.proj128_ref a0 a3 a4 _ _
    (fun k j => Cert.KernelIdeal.Halves.upper128 a4 k j) (fun k j => Cert.KernelIdeal.Halves.lower128 a4 k j)

theorem w4_v1 (h : At3 m ρ c) : W4 (F := Ideal) m ρ c (Proc.devRef .tc main_v1) = val_main_v1 (F := Ideal) a1 :=
  (W4_of_ne m ρ c main_v1 (by decide)).trans h.v1

theorem w4_v3 (h : At3 m ρ c) : W4 (F := Ideal) m ρ c (Proc.devRef .tc main_v3) = val_main_v3 (F := Ideal) a1 :=
  (W4_of_ne m ρ c main_v3 (by decide)).trans h.v3

theorem w4_v28 (h : At3 m ρ c) : W4 (F := Ideal) m ρ c (Proc.devRef .tc main_v28) = val_main_v30 (F := Ideal) a1 :=
  (W4_of_ne m ρ c main_v28 (by decide)).trans h.v28

theorem w4_v32 (h : At3 m ρ c) : W4 (F := Ideal) m ρ c (Proc.devRef .tc main_v32) = val_main_v47 (F := Ideal) a1 :=
  (W4_of_ne m ρ c main_v32 (by decide)).trans h.v32

theorem w4_arg5 (h : At3 m ρ c) : W4 (F := Ideal) m ρ c (Proc.devRef .tc main_arg5) = a5 :=
  (W4_of_ne m ρ c main_arg5 (by decide)).trans h.arg5

theorem w4_arg6 (h : At3 m ρ c) : W4 (F := Ideal) m ρ c (Proc.devRef .tc main_arg6) = a6 :=
  (W4_of_ne m ρ c main_arg6 (by decide)).trans h.arg6

theorem w4_arg7 (h : At3 m ρ c) : W4 (F := Ideal) m ρ c (Proc.devRef .tc main_arg7) = a7 :=
  (W4_of_ne m ρ c main_arg7 (by decide)).trans h.arg7

/-- An array the stage only reads ends as it was found. -/
theorem w4_arg0 (h : At3 m ρ c) : W4 (F := Ideal) m ρ c (Proc.devRef .tc main_arg0) = a0 :=
  ((W4_arr m ρ c 0).trans (((dat0 (V3 m ρ) c).arrAt_in 0 rfl _).trans (A_eq0 (V3 m ρ) c 0))).trans h.arg0

/-- An array the stage only reads ends as it was found. -/
theorem w4_arg3 (h : At3 m ρ c) : W4 (F := Ideal) m ρ c (Proc.devRef .tc main_arg3) = a3 :=
  ((W4_arr m ρ c 1).trans (((dat0 (V3 m ρ) c).arrAt_in 1 rfl _).trans (A_eq0 (V3 m ρ) c 1))).trans h.arg3

/-! ## The aggregation between the first projection and the gate

Sixteen array operations: the source node of each edge (a negative index wrapped once), the projection's row gathered
at it, scaled by the edge's factor, and summed into the row of the edge's target node, from zero. They are the
reference's operations on the same arrays, one for one. Every other buffer is carried. -/

/-- The aggregate of the first projection over the edges. -/
theorem w5_v48 (h : At3 m ρ c) : W5 (F := Ideal) m ρ c (Proc.devRef .tc main_v48) = val_main_v43 (F := Ideal) a0 a1 a3 a4 := by
  have h0 := w4_v35 m ρ c h
  have h1 := w4_v1 m ρ c h
  have h2 := w4_v3 m ρ c h
  have h3 := w4_v28 m ρ c h
  show StableHlo.after hostOps1 (W4 m ρ c) _ = _
  generalize W4 m ρ c = V at h0 h1 h2 h3 ⊢
  after_results_simp
  rw [h0, h1, h2, h3]
  try rfl

theorem w5_v35 (h : At3 m ρ c) : W5 (F := Ideal) m ρ c (Proc.devRef .tc main_v35) = val_main_v5 (F := Ideal) a0 a3 a4 := by
  have h0 := w4_v35 m ρ c h
  show StableHlo.after hostOps1 (W4 m ρ c) _ = _
  generalize W4 m ρ c = V at h0 ⊢
  after_results_simp
  rw [h0]
  try rfl

theorem w5_v1 (h : At3 m ρ c) : W5 (F := Ideal) m ρ c (Proc.devRef .tc main_v1) = val_main_v1 (F := Ideal) a1 := by
  have h0 := w4_v1 m ρ c h
  show StableHlo.after hostOps1 (W4 m ρ c) _ = _
  generalize W4 m ρ c = V at h0 ⊢
  after_results_simp
  rw [h0]
  try rfl

theorem w5_v3 (h : At3 m ρ c) : W5 (F := Ideal) m ρ c (Proc.devRef .tc main_v3) = val_main_v3 (F := Ideal) a1 := by
  have h0 := w4_v3 m ρ c h
  show StableHlo.after hostOps1 (W4 m ρ c) _ = _
  generalize W4 m ρ c = V at h0 ⊢
  after_results_simp
  rw [h0]
  try rfl

theorem w5_v28 (h : At3 m ρ c) : W5 (F := Ideal) m ρ c (Proc.devRef .tc main_v28) = val_main_v30 (F := Ideal) a1 := by
  have h0 := w4_v28 m ρ c h
  show StableHlo.after hostOps1 (W4 m ρ c) _ = _
  generalize W4 m ρ c = V at h0 ⊢
  after_results_simp
  rw [h0]
  try rfl

theorem w5_v32 (h : At3 m ρ c) : W5 (F := Ideal) m ρ c (Proc.devRef .tc main_v32) = val_main_v47 (F := Ideal) a1 := by
  have h0 := w4_v32 m ρ c h
  show StableHlo.after hostOps1 (W4 m ρ c) _ = _
  generalize W4 m ρ c = V at h0 ⊢
  after_results_simp
  rw [h0]
  try rfl

theorem w5_arg5 (h : At3 m ρ c) : W5 (F := Ideal) m ρ c (Proc.devRef .tc main_arg5) = a5 := by
  have h0 := w4_arg5 m ρ c h
  show StableHlo.after hostOps1 (W4 m ρ c) _ = _
  generalize W4 m ρ c = V at h0 ⊢
  after_results_simp
  rw [h0]
  try rfl

theorem w5_arg6 (h : At3 m ρ c) : W5 (F := Ideal) m ρ c (Proc.devRef .tc main_arg6) = a6 := by
  have h0 := w4_arg6 m ρ c h
  show StableHlo.after hostOps1 (W4 m ρ c) _ = _
  generalize W4 m ρ c = V at h0 ⊢
  after_results_simp
  rw [h0]
  try rfl

theorem w5_arg7 (h : At3 m ρ c) : W5 (F := Ideal) m ρ c (Proc.devRef .tc main_arg7) = a7 := by
  have h0 := w4_arg7 m ρ c h
  show StableHlo.after hostOps1 (W4 m ρ c) _ = _
  generalize W4 m ρ c = V at h0 ⊢
  after_results_simp
  rw [h0]
  try rfl

theorem w5_arg0 (h : At3 m ρ c) : W5 (F := Ideal) m ρ c (Proc.devRef .tc main_arg0) = a0 := by
  have h0 := w4_arg0 m ρ c h
  show StableHlo.after hostOps1 (W4 m ρ c) _ = _
  generalize W4 m ρ c = V at h0 ⊢
  after_results_simp
  rw [h0]
  try rfl

theorem w5_arg3 (h : At3 m ρ c) : W5 (F := Ideal) m ρ c (Proc.devRef .tc main_arg3) = a3 := by
  have h0 := w4_arg3 m ρ c h
  show StableHlo.after hostOps1 (W4 m ρ c) _ = _
  generalize W4 m ρ c = V at h0 ⊢
  after_results_simp
  rw [h0]
  try rfl

/-! ## The step -/

/-- From the first projection's entry to the gate's entry. -/
theorem at5_of_at3 (h : At3 m ρ c) : At5 m ρ c where
  v48 := w5_v48 m ρ c h
  v35 := w5_v35 m ρ c h
  v32 := w5_v32 m ρ c h
  arg5 := w5_arg5 m ρ c h
  v1 := w5_v1 m ρ c h
  v3 := w5_v3 m ρ c h
  v28 := w5_v28 m ρ c h
  arg0 := w5_arg0 m ρ c h
  arg3 := w5_arg3 m ρ c h
  arg6 := w5_arg6 m ρ c h
  arg7 := w5_arg7 m ρ c h

end Cert.KernelIdeal.Stages
end
-- ==== Proof.Activate.lean ====
/-
  The two activation stages, each as one function of whole arrays.

  Each stage walks ten row blocks of 5000 rows. At a block it reads the matching row blocks of its matrix inputs, the
  matching 5000 entries of a one-column array (one number per row) and a whole bias vector (one number per column),
  and writes one row block of the output. Read entry by entry, the value written at row p, column q of block t is the
  stage's formula at row t · 5000 + p, column q of the whole arrays; the ten blocks fill the output array, so the
  array ends holding the formula everywhere:

  * stage one (128 columns):  logistic (agg + xw · s + bias);
  * stage two (64 columns):   u · h + (1 − u) · tanh (agg + xw · s + bias).
-/
import proofs.«153109_j7215545057454_1_alg».proof.Proof.Gen.KernelIdeal.Frame
import proofs.«153109_j7215545057454_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Activate

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Two broadcasts read at an index -/

/-- A column [a,1] broadcast to [a,b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a rank-2 rectangle, as a constant function. -/
theorem zero2 : (![0, 0] : Fin 2 → Nat) = fun _ => 0 := funext fun a => by fin_cases a <;> rfl
/-- The zero offset of a rank-1 rectangle, as a constant function. -/
theorem zero1 : (![0] : Fin 1 → Nat) = fun _ => 0 := funext fun a => by fin_cases a; rfl

/-! ## The sigmoid gate: logistic (agg + xw · s + bias), 128 columns -/

/-- The body's value at row p, column q of a block: the two row-block inputs at (p, q), the column input at row p
    (its one column spread over the 128), the bias vector at q (its one row spread over the 5000). -/
theorem gate_block_apply (x0 x1 : Vec Ideal S5000x128 .f32) (x2 : Vec Ideal S5000x1 .f32) (x3 : Vec Ideal S128 .f32)
    (p : Fin 5000) (q : Fin 128) :
    k1_pay1 x0 x1 x2 x3 (ix2 p q)
      = Ideal.logistic (x0 (ix2 p q) + x1 (ix2 p q) * x2 (ix2 p (0 : Fin 1)) + x3 (ix1 q)) := by
  unfold k1_pay1
  rw [shapeCast_self, shapeCast_self, shapeCast_self]
  show Ideal.logistic (x0 (ix2 p q) + x1 (ix2 p q) * broadcastTo S5000x128 x2 broadcasts_S5000x1_S5000x128 (ix2 p q)
      + broadcastTo S5000x128 (shapeCast S1x128 x3 shapeCasts_S128_S1x128) broadcasts_S1x128_S5000x128 (ix2 p q)) = _
  rw [broadcastTo_a1_ab_apply, broadcastTo_1b_ab_apply, shapeCast_a_1a_apply]

/-- The block index maps, decided over the ten grid points: the three row-block inputs move with the output's row block,
    point t's row block is block t, every column block index is 0, and the bias vector is read whole. -/
theorem gate_index_facts : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Every one of the ten row blocks is some point's. -/
theorem gate_index_onto : ∀ q0 : Fin 10, ∃ t : Fin cfg1.N, win1_4.index t = ![q0.val, 0] :=
  (by decide +kernel : ∀ q0 : Fin 10, ∃ t : Fin grid1.N, win1_4.index t = ![q0.val, 0])

/-- The gate read at an element of point t's output block: each input block's element sits, in its array, where the
    output block's element does (same row; the column array at column 0; the bias vector at the column). -/
theorem gate_read (A0 A1 : S50000x128.Idx → EReal) (A2 : S50000x1.Idx → EReal) (A3 : S128.Idx → EReal)
    (t : Fin cfg1.N) (p : Fin 5000) (q : Fin 128) :
    Ideal.logistic (A0 (((cfg1.win 0).blk t).view.emb (ix2 p q))
        + A1 (((cfg1.win 1).blk t).view.emb (ix2 p q)) * A2 (((cfg1.win 2).blk t).view.emb (ix2 p (0 : Fin 1)))
        + A3 (((cfg1.win 3).blk t).view.emb (ix1 q)))
      = Cert.Spec.gate A0 A1 A2 A3 (((cfg1.win 4).blk t).view.emb (ix2 p q)) := by
  obtain ⟨e0, e1, e2, e3, e4, e5, e6, e7, e8⟩ := gate_index_facts t
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix1 q) = ix1 ((((cfg1.win 4).blk t).view.emb (ix2 p q)) 1) := by
    funext a; apply Fin.ext
    match a with
    | ⟨0, _⟩ => show win1_3.index t (0 : Fin 1) * 128 + 1 * q.val = win1_4.index t (1 : Fin 2) * 128 + 1 * q.val; omega
  rw [h0, h1, h2, h3]
  rfl

set_option maxHeartbeats 400000 in
/-- WHAT POINT t WRITES BACK is row block t of the gate of the arrays as the region finds them. -/
theorem gate_flushed (c : Dev nD) (t : Fin cfg1.N) :
    (dat1 (F := Ideal) V c).flushed 4 t
      = ((cfg1.win 4).blk t).view.read (Elt Ideal)
          (Cert.Spec.gate (V c main_v48) (V c main_v35) (V c main_v32) (V c main_arg5)) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S5000x1) zero2,
    View.ld_unit_zero (S := S128) zero1]
  funext j
  obtain ⟨p, q, rfl⟩ : ∃ (p : Fin 5000) (q : Fin 128), j = ix2 p q := ⟨j 0, j 1, eq_ix2 j⟩
  refine (gate_block_apply (iblk1 V c 0 t) (iblk1 V c 1 t) (iblk1 V c 2 t) (iblk1 V c 3 t) p q).trans ?_
  exact gate_read (V c main_v48) (V c main_v35) (V c main_v32) (V c main_arg5) t p q

/-- An index of the output array is in point t's block iff each coordinate is in the block's range on its axis. -/
theorem gate_mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v49).slice (win1_4.rect t)).set ↔ _
  rw [View.set_slice_whole, Rect.mem_set_unit]
  exact Iff.rfl

/-- The ten row blocks fill the array: row r is in block r / 5000. -/
theorem gate_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := gate_index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [gate_mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY after region 1: the gate of the arrays the region finds, at every index. -/
theorem final1 (c : Dev nD) :
    (dat1 (F := Ideal) V c).arrAt 4 cfg1.N
      = Cert.Spec.gate (V c main_v48) (V c main_v35) (V c main_v32) (V c main_arg5) :=
  (dat1 (F := Ideal) V c).arrAt_eq_of_cover 4 _ (fun t _ => gate_flushed V c t) gate_cover

/-! ## The tanh update: u · h + (1 − u) · tanh (agg + xw · s + bias), 64 columns -/

/-- The body's value at row p, column q of a block: the four row-block inputs at (p, q), the column input at row p,
    the bias vector at q; the constant one is the single-precision word the program spells. -/
theorem combine_block_apply (x0 x1 : Vec Ideal S5000x64 .f32) (x2 : Vec Ideal S5000x1 .f32) (x3 : Vec Ideal S64 .f32)
    (x4 x5 : Vec Ideal S5000x64 .f32) (p : Fin 5000) (q : Fin 64) :
    k3_pay1 x0 x1 x2 x3 x4 x5 (ix2 p q)
      = x4 (ix2 p q) * x5 (ix2 p q)
        + (Ideal.ofBits .f32 0x3F800000#32 - x4 (ix2 p q))
          * Ideal.tanh (x0 (ix2 p q) + x1 (ix2 p q) * x2 (ix2 p (0 : Fin 1)) + x3 (ix1 q)) := by
  unfold k3_pay1
  rw [shapeCast_self, shapeCast_self, shapeCast_self, shapeCast_self]
  show x4 (ix2 p q) * x5 (ix2 p q)
      + (Ideal.ofBits .f32 0x3F800000#32 - x4 (ix2 p q))
        * Ideal.tanh (x0 (ix2 p q) + x1 (ix2 p q) * broadcastTo S5000x64 x2 broadcasts_S5000x1_S5000x64 (ix2 p q)
          + broadcastTo S5000x64 (shapeCast S1x64 x3 shapeCasts_S64_S1x64) broadcasts_S1x64_S5000x64 (ix2 p q)) = _
  rw [broadcastTo_a1_ab_apply, broadcastTo_1b_ab_apply, shapeCast_a_1a_apply]

/-- The block index maps, decided over the ten grid points: the five row-block inputs move with the output's row block,
    point t's row block is block t, every column block index is 0, and the bias vector is read whole. -/
theorem combine_index_facts : ∀ t : Fin cfg3.N,
    win3_0.index t (0 : Fin 2) = win3_6.index t (0 : Fin 2) ∧ win3_0.index t (1 : Fin 2) = win3_6.index t (1 : Fin 2)
    ∧ win3_1.index t (0 : Fin 2) = win3_6.index t (0 : Fin 2) ∧ win3_1.index t (1 : Fin 2) = win3_6.index t (1 : Fin 2)
    ∧ win3_2.index t (0 : Fin 2) = win3_6.index t (0 : Fin 2) ∧ win3_2.index t (1 : Fin 2) = 0
    ∧ win3_3.index t (0 : Fin 1) = 0
    ∧ win3_4.index t (0 : Fin 2) = win3_6.index t (0 : Fin 2) ∧ win3_4.index t (1 : Fin 2) = win3_6.index t (1 : Fin 2)
    ∧ win3_5.index t (0 : Fin 2) = win3_6.index t (0 : Fin 2) ∧ win3_5.index t (1 : Fin 2) = win3_6.index t (1 : Fin 2)
    ∧ win3_6.index t (0 : Fin 2) = t.val ∧ win3_6.index t (1 : Fin 2) = 0 :=
  (by decide +kernel : ∀ t : Fin grid3.N, _)

/-- Every one of the ten row blocks is some point's. -/
theorem combine_index_onto : ∀ q0 : Fin 10, ∃ t : Fin cfg3.N, win3_6.index t = ![q0.val, 0] :=
  (by decide +kernel : ∀ q0 : Fin 10, ∃ t : Fin grid3.N, win3_6.index t = ![q0.val, 0])

/-- The update read at an element of point t's output block: each input block's element sits, in its array, where the
    output block's element does (same row; the column array at column 0; the bias vector at the column). -/
theorem combine_read (A0 A1 : S50000x64.Idx → EReal) (A2 : S50000x1.Idx → EReal) (A3 : S64.Idx → EReal)
    (A4 A5 : S50000x64.Idx → EReal) (t : Fin cfg3.N) (p : Fin 5000) (q : Fin 64) :
    A4 (((cfg3.win 4).blk t).view.emb (ix2 p q)) * A5 (((cfg3.win 5).blk t).view.emb (ix2 p q))
        + (Ideal.ofBits .f32 0x3F800000#32 - A4 (((cfg3.win 4).blk t).view.emb (ix2 p q)))
          * Ideal.tanh (A0 (((cfg3.win 0).blk t).view.emb (ix2 p q))
              + A1 (((cfg3.win 1).blk t).view.emb (ix2 p q)) * A2 (((cfg3.win 2).blk t).view.emb (ix2 p (0 : Fin 1)))
              + A3 (((cfg3.win 3).blk t).view.emb (ix1 q)))
      = Cert.Spec.combine A0 A1 A2 A3 A4 A5 (((cfg3.win 6).blk t).view.emb (ix2 p q)) := by
  obtain ⟨e0, e1, e2, e3, e4, e5, e6, e7, e8, e9, e10, e11, e12⟩ := combine_index_facts t
  have h0 : ((cfg3.win 0).blk t).view.emb (ix2 p q) = ((cfg3.win 6).blk t).view.emb (ix2 p q) := by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 64 + 1 * q.val = win3_6.index t (1 : Fin 2) * 64 + 1 * q.val; omega
  have h1 : ((cfg3.win 1).blk t).view.emb (ix2 p q) = ((cfg3.win 6).blk t).view.emb (ix2 p q) := by
    funext a; apply Fin.ext
    match a with
    | ⟨0, _⟩ => show win3_1.index t (0 : Fin 2) * 5000 + 1 * p.val = win3_6.index t (0 : Fin 2) * 5000 + 1 * p.val; omega
    | ⟨1, _⟩ => show win3_1.index t (1 : Fin 2) * 64 + 1 * q.val = win3_6.index t (1 : Fin 2) * 64 + 1 * q.val; omega
  have h2 : ((cfg3.win 2).blk t).view.emb (ix2 p (0 : Fin 1))
      = ix2 ((((cfg3.win 6).blk t).view.emb (ix2 p q)) 0) (0 : Fin 1) := by
    funext a; apply Fin.ext
    match a with
    | ⟨0, _⟩ => show win3_2.index t (0 : Fin 2) * 5000 + 1 * p.val = win3_6.index t (0 : Fin 2) * 5000 + 1 * p.val; omega
    | ⟨1, _⟩ => show win3_2.index t (1 : Fin 2) * 1 + 1 * 0 = 0; omega
  have h3 : ((cfg3.win 3).blk t).view.emb (ix1 q) = ix1 ((((cfg3.win 6).blk t).view.emb (ix2 p q)) 1) := by
    funext a; apply Fin.ext
    match a with
    | ⟨0, _⟩ => show win3_3.index t (0 : Fin 1) * 64 + 1 * q.val = win3_6.index t (1 : Fin 2) * 64 + 1 * q.val; omega
  have h4 : ((cfg3.win 4).blk t).view.emb (ix2 p q) = ((cfg3.win 6).blk t).view.emb (ix2 p q) := by
    funext a; apply Fin.ext
    match a with
    | ⟨0, _⟩ => show win3_4.index t (0 : Fin 2) * 5000 + 1 * p.val = win3_6.index t (0 : Fin 2) * 5000 + 1 * p.val; omega
    | ⟨1, _⟩ => show win3_4.index t (1 : Fin 2) * 64 + 1 * q.val = win3_6.index t (1 : Fin 2) * 64 + 1 * q.val; omega
  have h5 : ((cfg3.win 5).blk t).view.emb (ix2 p q) = ((cfg3.win 6).blk t).view.emb (ix2 p q) := by
    funext a; apply Fin.ext
    match a with
    | ⟨0, _⟩ => show win3_5.index t (0 : Fin 2) * 5000 + 1 * p.val = win3_6.index t (0 : Fin 2) * 5000 + 1 * p.val; omega
    | ⟨1, _⟩ => show win3_5.index t (1 : Fin 2) * 64 + 1 * q.val = win3_6.index t (1 : Fin 2) * 64 + 1 * q.val; omega
  rw [h0, h1, h2, h3, h4, h5]
  rfl

set_option maxHeartbeats 400000 in
/-- WHAT POINT t WRITES BACK is row block t of the update of the arrays as the region finds them. -/
theorem combine_flushed (c : Dev nD) (t : Fin cfg3.N) :
    (dat3 (F := Ideal) V c).flushed 6 t
      = ((cfg3.win 6).blk t).view.read (Elt Ideal)
          (Cert.Spec.combine (V c main_v71) (V c main_v58) (V c main_v32) (V c main_arg7) (V c main_v54) (V c main_arg3)) := by
  show (cfg3.win 6).cut (grid3.coords t) ((dat3 V c).after 6 t) = _
  rw [after3_6]
  unfold out3_6
  rw [View.canon_unit_zero zero2]
  simp only [View.ld_unit_zero (S := S5000x64) zero2, View.ld_unit_zero (S := S5000x1) zero2,
    View.ld_unit_zero (S := S64) zero1]
  funext j
  obtain ⟨p, q, rfl⟩ : ∃ (p : Fin 5000) (q : Fin 64), j = ix2 p q := ⟨j 0, j 1, eq_ix2 j⟩
  refine (combine_block_apply (iblk3 V c 0 t) (iblk3 V c 1 t) (iblk3 V c 2 t) (iblk3 V c 3 t) (iblk3 V c 4 t)
    (iblk3 V c 5 t) p q).trans ?_
  exact combine_read (V c main_v71) (V c main_v58) (V c main_v32) (V c main_arg7) (V c main_v54) (V c main_arg3) t p q

/-- An index of the output array is in point t's block iff each coordinate is in the block's range on its axis. -/
theorem combine_mem_blk (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v72).slice (win3_6.rect t)).set ↔ _
  rw [View.set_slice_whole, Rect.mem_set_unit]
  exact Iff.rfl

/-- The ten row blocks fill the array: row r is in block r / 5000. -/
theorem combine_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ := combine_index_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [combine_mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- THE ARRAY after region 3: the update of the arrays the region finds, at every index. -/
theorem final3 (c : Dev nD) :
    (dat3 (F := Ideal) V c).arrAt 6 cfg3.N
      = Cert.Spec.combine (V c main_v71) (V c main_v58) (V c main_v32) (V c main_arg7) (V c main_v54) (V c main_arg3) :=
  (dat3 (F := Ideal) V c).arrAt_eq_of_cover 6 _ (fun t _ => combine_flushed V c t) combine_cover

end Cert.KernelIdeal.Activate

end
-- ==== Proof.ActivateRef.lean ====
/-
  The reference's two activation chains are the specification's functions.

  The reference spells the gate as  1 / (1 + exp (−(agg + xw · s + bias)))  with the one-number-per-row array s
  spread over the columns and the bias vector spread over the rows, and the update as
  u · h + (1 − u) · tanh (agg + xw · s + bias)  with the same two spreads. Read entry by entry, the spread arrays are
  s at (row, 0) and bias at the column, the quotient is the logistic function by its definition, and the
  single-precision word for one denotes the number one.
-/
import proofs.«153109_j7215545057454_1_alg».proof.Proof.RefRead
import proofs.«153109_j7215545057454_1_alg».proof.Proof.Spec

set_option maxRecDepth 16384

noncomputable section

namespace Cert.ReferenceIdeal.ActivateRef

open Cert.ReferenceIdeal Cert.ReferenceIdeal.Read Idealize.ShloMosaic Idealize.ShloMosaic.ValueIdx

/-- The single-precision word 0x3F800000 denotes the number one. -/
theorem one_word : Ideal.ofBits .f32 0x3F800000#32 = 1 := by
  simp [Ideal.ofBits, Ideal.ieee, -EReal.coe_mul]; norm_num

/-- The logistic function is the quotient the reference spells: one over one plus the exponential of the negation. -/
theorem logistic_chain (a b s c : Ideal .f32) :
    Ideal.logistic (a + b * s + c)
      = FloatOps.hostDivf (FloatOps.ofBits (F := Ideal) .f32 0x3F800000#32)
          (FloatOps.addf (FloatOps.ofBits (F := Ideal) .f32 0x3F800000#32)
            (FloatOps.hostUnary .exp (FloatOps.hostNegf (FloatOps.addf (FloatOps.addf a (FloatOps.mulf b s)) c)))) := by
  show Ideal.div 1 (1 + Ideal.exp (-(a + b * s + c)))
      = Ideal.div (Ideal.ofBits .f32 0x3F800000#32) (Ideal.ofBits .f32 0x3F800000#32 + Ideal.exp (-(a + b * s + c)))
  rw [one_word]

/-- The update, in the reference's operations; the word for one is kept as a word on both sides. -/
theorem tanh_chain (a b s c u h : Ideal .f32) :
    u * h + (Ideal.ofBits .f32 0x3F800000#32 - u) * Ideal.tanh (a + b * s + c)
      = FloatOps.addf (FloatOps.mulf u h)
          (FloatOps.mulf (FloatOps.subf (FloatOps.ofBits (F := Ideal) .f32 0x3F800000#32) u)
            (FloatOps.hostUnary .tanh (FloatOps.addf (FloatOps.addf a (FloatOps.mulf b s)) c))) := rfl

/-- THE GATE: the specification's gate of the reference's aggregated messages, projected features, per-row factor
    and bias is the reference's own chain, entry by entry. -/
theorem gate_ref (x0 : (⟨S50000x64, .f32⟩ : BufTy).Contents (Elt Ideal)) (x1 : (⟨S2x800000, .i32⟩ : BufTy).Contents (Elt Ideal))
    (x3 : (⟨S50000x64, .f32⟩ : BufTy).Contents (Elt Ideal)) (x4 : (⟨S128x128, .f32⟩ : BufTy).Contents (Elt Ideal))
    (x5 : (⟨S128, .f32⟩ : BufTy).Contents (Elt Ideal)) :
    Cert.Spec.gate (val_main_v43 (F := Ideal) x0 x1 x3 x4) (val_main_v5 (F := Ideal) x0 x3 x4) (val_main_v47 (F := Ideal) x1) x5
      = val_main_v59 (F := Ideal) x0 x1 x3 x4 x5 := by
  funext i
  rw [val_main_v59_apply, val_main_v58_apply, val_main_cst_12_apply, val_main_v57_apply, val_main_v56_apply,
    val_main_cst_11_apply, val_main_v55_apply, val_main_v54_apply, val_main_v53_apply, val_main_v52_apply,
    val_main_v51_apply, val_main_v50_apply, val_main_v49_apply, val_main_v48_apply]
  have e1 : idx_main_v48 i = ix2 (i 0) (0 : Fin 1) :=
    funext fun a => Fin.ext (by match a with | ⟨0, _⟩ => rfl | ⟨1, _⟩ => rfl)
  have e2 : idx_main_v51 (idx_main_v52 i) = ix1 (i 1) :=
    funext fun a => Fin.ext (by match a with | ⟨0, _⟩ => rfl)
  rw [e1, e2]
  exact logistic_chain _ _ _ _

/-- THE UPDATE: the specification's update of the reference's aggregated messages, projected features, per-row
    factor, bias, gate and state is the reference's own chain, entry by entry. -/
theorem combine_ref (x0 : (⟨S50000x64, .f32⟩ : BufTy).Contents (Elt Ideal)) (x1 : (⟨S2x800000, .i32⟩ : BufTy).Contents (Elt Ideal))
    (x3 : (⟨S50000x64, .f32⟩ : BufTy).Contents (Elt Ideal)) (x4 : (⟨S128x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) :
    Cert.Spec.combine (val_main_v105 (F := Ideal) x0 x1 x3 x4 x5 x6) (val_main_v67 (F := Ideal) x0 x1 x3 x4 x5 x6)
        (val_main_v109 (F := Ideal) x1) x7 (val_main_v64 (F := Ideal) x0 x1 x3 x4 x5) x3
      = val_main_v121 (F := Ideal) x0 x1 x3 x4 x5 x6 x7 := by
  funext i
  rw [val_main_v121_apply, val_main_v120_apply, val_main_v119_apply, val_main_v118_apply, val_main_cst_26_apply,
    val_main_v117_apply, val_main_v116_apply, val_main_v115_apply, val_main_v114_apply, val_main_v113_apply,
    val_main_v112_apply, val_main_v111_apply, val_main_v110_apply]
  have e1 : idx_main_v110 i = ix2 (i 0) (0 : Fin 1) :=
    funext fun a => Fin.ext (by match a with | ⟨0, _⟩ => rfl | ⟨1, _⟩ => rfl)
  have e2 : idx_main_v113 (idx_main_v114 i) = ix1 (i 1) :=
    funext fun a => Fin.ext (by match a with | ⟨0, _⟩ => rfl)
  rw [e1, e2]
  exact tanh_chain _ _ _ _ _ _

end Cert.ReferenceIdeal.ActivateRef

end
-- ==== Proof.StagesC.lean ====
/-
  From the gate's entry to the second projection's entry.

  Between the two boundaries the program runs the gate stage and then re-lays the gate: the [50000, 128] array is
  flattened, cut into its first and second 3200000 entries, each half re-laid as a [50000, 64] array; the first half
  is multiplied by the state, and the second weight matrix is cut into its upper and lower 64 rows. Every buffer the
  later stages read is followed across both steps: the gate's output is the reference's gate, the halves and the gated
  state are the reference's own re-layout of it, and the edge lists, the edge factor, the per-node column and the
  arguments are carried unchanged.
-/
import proofs.«153109_j7215545057454_1_alg».proof.Proof.Gen.KernelIdeal.Frame
import proofs.«153109_j7215545057454_1_alg».proof.Proof.RefRead
import proofs.«153109_j7215545057454_1_alg».proof.Proof.LibColumn
import Idealize.ShloMosaic.Lib.StableHlo.Run
import Idealize.ShloMosaic.PureOps.Ideal
import proofs.«153109_j7215545057454_1_alg».proof.Proof.Bounds
import proofs.«153109_j7215545057454_1_alg».proof.Proof.Activate
import proofs.«153109_j7215545057454_1_alg».proof.Proof.ActivateRef

set_option maxRecDepth 16384
set_option quotPrecheck false
noncomputable section
namespace Cert.KernelIdeal.Stages
open Cert.ReferenceIdeal.Read
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## Across the gate stage -/

/-- The gate stage leaves, in its output array, the reference's gate: the stage computes the gate of what it finds,
    what it finds are the reference's aggregate, first projection, per-node column and the bias argument, and the
    reference spells the same function. -/
theorem w6_v49 (h : At5 m ρ c) :
    W6 (F := Ideal) m ρ c (Proc.devRef .tc main_v49) = val_main_v59 (F := Ideal) a0 a1 a3 a4 a5 := by
  refine (W6_arr m ρ c 4).trans ((Activate.final1 (V5 m ρ) c).trans ?_)
  show Cert.Spec.gate (W5 (F := Ideal) m ρ c (Proc.devRef .tc main_v48)) (W5 (F := Ideal) m ρ c (Proc.devRef .tc main_v35))
      (W5 (F := Ideal) m ρ c (Proc.devRef .tc main_v32)) (W5 (F := Ideal) m ρ c (Proc.devRef .tc main_arg5)) = _
  rw [h.v48, h.v35, h.v32, h.arg5]
  exact Cert.ReferenceIdeal.ActivateRef.gate_ref a0 a1 a3 a4 a5

/-- The per-node column is an input of the gate stage: the stage leaves it as found. -/
theorem w6_v32 (h : At5 m ρ c) :
    W6 (F := Ideal) m ρ c (Proc.devRef .tc main_v32) = val_main_v47 (F := Ideal) a1 :=
  ((W6_arr m ρ c 2).trans (((dat1 (V5 m ρ) c).arrAt_in 2 rfl _).trans (A_eq1 (V5 m ρ) c 2))).trans h.v32

/-! ## Across the re-layout of the gate into its two halves -/

/-- The second half of the gate, re-laid as a [50000, 64] array: flatten, cut the second 3200000 entries, re-lay. -/
theorem w7_v54 (h49 : W6 (F := Ideal) m ρ c (Proc.devRef .tc main_v49) = val_main_v59 (F := Ideal) a0 a1 a3 a4 a5) :
    W7 (F := Ideal) m ρ c (Proc.devRef .tc main_v54) = val_main_v64 (F := Ideal) a0 a1 a3 a4 a5 := by
  show StableHlo.after hostOps2 (W6 m ρ c) _ = _
  generalize W6 m ρ c = V at h49 ⊢
  after_results_simp
  rw [h49]
  rfl

/-- The first half of the gate, re-laid the same way, times the state. -/
theorem w7_v55 (h49 : W6 (F := Ideal) m ρ c (Proc.devRef .tc main_v49) = val_main_v59 (F := Ideal) a0 a1 a3 a4 a5)
    (h3 : W6 (F := Ideal) m ρ c (Proc.devRef .tc main_arg3) = a3) :
    W7 (F := Ideal) m ρ c (Proc.devRef .tc main_v55) = val_main_v65 (F := Ideal) a0 a1 a3 a4 a5 := by
  show StableHlo.after hostOps2 (W6 m ρ c) _ = _
  generalize W6 m ρ c = V at h49 h3 ⊢
  after_results_simp
  rw [h49, h3]
  rfl

/-- The upper half of the second weight matrix. -/
theorem w7_v56 (h6 : W6 (F := Ideal) m ρ c (Proc.devRef .tc main_arg6) = a6) :
    W7 (F := Ideal) m ρ c (Proc.devRef .tc main_v56) = extractStridedSlice S64x64 ![0, 0] a6 slices_S128x64_S64x64_0_0 := by
  show StableHlo.after hostOps2 (W6 m ρ c) _ = _
  generalize W6 m ρ c = V at h6 ⊢
  after_results_simp
  rw [h6]

/-- The lower half of the second weight matrix. -/
theorem w7_v57 (h6 : W6 (F := Ideal) m ρ c (Proc.devRef .tc main_arg6) = a6) :
    W7 (F := Ideal) m ρ c (Proc.devRef .tc main_v57) = extractStridedSlice S64x64 ![64, 0] a6 slices_S128x64_S64x64_64_0 := by
  show StableHlo.after hostOps2 (W6 m ρ c) _ = _
  generalize W6 m ρ c = V at h6 ⊢
  after_results_simp
  rw [h6]

/-- A buffer the re-layout does not write keeps its contents. -/
theorem w7_of_ne (b : Ref sig .tc)
    (hb : ∀ y ∈ ([main_v50, main_v51, main_v52, main_v53, main_v54, main_v55, main_v56, main_v57] : List (Ref sig .tc)), b ≠ y) :
    W7 (F := Ideal) m ρ c (Proc.devRef .tc b) = W6 (F := Ideal) m ρ c (Proc.devRef .tc b) :=
  StableHlo.after_of_forall_not_mem (b := Proc.devRef .tc b) _ _ (List.forall_iff_forall_mem.mp (by
    simp only [hostOps2, List.Forall, StableHlo.unary_writes, StableHlo.binary_writes, StableHlo.reshape_writes,
      Finset.mem_singleton]
    refine ⟨?_, ?_, ?_, ?_, ?_, ?_, ?_, ?_⟩
    all_goals exact StableHlo.devRef_ne_of_ne (hb _ (by simp))))

/-! ## From the gate's entry to the second projection's entry -/

/-- What the second projection finds, from what the gate found. -/
theorem at7_of_at5 (h : At5 m ρ c) : At7 m ρ c := by
  have h49 := w6_v49 m ρ c h
  have k3 : W6 (F := Ideal) m ρ c (Proc.devRef .tc main_arg3) = a3 := (W6_of_ne m ρ c main_arg3 (by decide)).trans h.arg3
  have k6 : W6 (F := Ideal) m ρ c (Proc.devRef .tc main_arg6) = a6 := (W6_of_ne m ρ c main_arg6 (by decide)).trans h.arg6
  exact {
    arg0 := (w7_of_ne m ρ c main_arg0 (by decide)).trans ((W6_of_ne m ρ c main_arg0 (by decide)).trans h.arg0)
    v55 := w7_v55 m ρ c h49 k3
    v56 := w7_v56 m ρ c k6
    v57 := w7_v57 m ρ c k6
    v54 := w7_v54 m ρ c h49
    v1 := (w7_of_ne m ρ c main_v1 (by decide)).trans ((W6_of_ne m ρ c main_v1 (by decide)).trans h.v1)
    v3 := (w7_of_ne m ρ c main_v3 (by decide)).trans ((W6_of_ne m ρ c main_v3 (by decide)).trans h.v3)
    v28 := (w7_of_ne m ρ c main_v28 (by decide)).trans ((W6_of_ne m ρ c main_v28 (by decide)).trans h.v28)
    v32 := (w7_of_ne m ρ c main_v32 (by decide)).trans (w6_v32 m ρ c h)
    arg3 := (w7_of_ne m ρ c main_arg3 (by decide)).trans k3
    arg7 := (w7_of_ne m ρ c main_arg7 (by decide)).trans ((W6_of_ne m ρ c main_arg7 (by decide)).trans h.arg7) }

end Cert.KernelIdeal.Stages
end
-- ==== Proof.RefTwice.lean ====
import proofs.«153109_j7215545057454_1_alg».proof.Proof.RefRead

/-!
  The reference applies its graph convolution twice, and each application recomputes, from the edge list alone, the
  same normalisation: the degree of every node (the edges into it, plus two for the self loop), its inverse square
  root (zero where the degree is not positive), the product of that factor at the two ends of every edge, and the
  doubled square of the factor per node as a column. The second computation is the first under new names; each
  step below is one operation applied to operands already known to be equal.
-/

noncomputable section

namespace Cert.ReferenceIdeal.Twice

open Cert.ReferenceIdeal Cert.ReferenceIdeal.Gen Cert.ReferenceIdeal.Read Idealize.ShloMosaic Idealize.SL.Sem

variable {F : FTy → Type} [FloatOps F]

/-- The count of edges into each node. -/
theorem degree (x1 : (⟨S2x800000, .i32⟩ : BufTy).Contents (Elt F)) : val_main_v71 (F := F) x1 = val_main_v9 (F := F) x1 := by
  unfold val_main_v71 val_main_v9
  rfl

/-- … plus the self loop's two. -/
theorem degree_plus (x1 : (⟨S2x800000, .i32⟩ : BufTy).Contents (Elt F)) : val_main_v73 (F := F) x1 = val_main_v11 (F := F) x1 := by
  unfold val_main_v73 val_main_v11
  rw [degree x1]
  all_goals rfl

/-- Where that is positive. -/
theorem positive (x1 : (⟨S2x800000, .i32⟩ : BufTy).Contents (Elt F)) : val_main_v75 (F := F) x1 = val_main_v13 (F := F) x1 := by
  unfold val_main_v75 val_main_v13
  rw [degree_plus x1]
  all_goals rfl

/-- Its inverse square root. -/
theorem root (x1 : (⟨S2x800000, .i32⟩ : BufTy).Contents (Elt F)) : val_main_v76 (F := F) x1 = val_main_v14 (F := F) x1 := by
  unfold val_main_v76 val_main_v14
  rw [degree_plus x1]
  all_goals rfl

/-- The node factor: the inverse root where the degree is positive, zero elsewhere. -/
theorem factor (x1 : (⟨S2x800000, .i32⟩ : BufTy).Contents (Elt F)) : val_main_v77 (F := F) x1 = val_main_v15 (F := F) x1 := by
  unfold val_main_v77 val_main_v15
  rw [positive x1, root x1]
  all_goals rfl

/-- The node factor at each edge's source. -/
theorem factor_at_source (x1 : (⟨S2x800000, .i32⟩ : BufTy).Contents (Elt F)) : val_main_v84 (F := F) x1 = val_main_v22 (F := F) x1 := by
  unfold val_main_v84 val_main_v22
  rw [factor x1]
  all_goals rfl

/-- The node factor at each edge's target. -/
theorem factor_at_target (x1 : (⟨S2x800000, .i32⟩ : BufTy).Contents (Elt F)) : val_main_v91 (F := F) x1 = val_main_v29 (F := F) x1 := by
  unfold val_main_v91 val_main_v29
  rw [factor x1]
  all_goals rfl

/-- The edge factor: the product of the node factors at its two ends. -/
theorem edge_factor (x1 : (⟨S2x800000, .i32⟩ : BufTy).Contents (Elt F)) : val_main_v92 (F := F) x1 = val_main_v30 (F := F) x1 := by
  unfold val_main_v92 val_main_v30
  rw [factor_at_source x1, factor_at_target x1]
  all_goals rfl

/-- Twice the node factor. -/
theorem twice_factor (x1 : (⟨S2x800000, .i32⟩ : BufTy).Contents (Elt F)) : val_main_v107 (F := F) x1 = val_main_v45 (F := F) x1 := by
  unfold val_main_v107 val_main_v45
  rw [factor x1]
  all_goals rfl

/-- The self loop's factor per node: twice the square of the node factor. -/
theorem self_factor (x1 : (⟨S2x800000, .i32⟩ : BufTy).Contents (Elt F)) : val_main_v108 (F := F) x1 = val_main_v46 (F := F) x1 := by
  unfold val_main_v108 val_main_v46
  rw [twice_factor x1, factor x1]
  all_goals rfl

/-- … as a column. -/
theorem self_factor_column (x1 : (⟨S2x800000, .i32⟩ : BufTy).Contents (Elt F)) : val_main_v109 (F := F) x1 = val_main_v47 (F := F) x1 := by
  unfold val_main_v109 val_main_v47
  rw [self_factor x1]
  all_goals rfl

/-- The two facts the stage chain uses, under the second computation's numbers. -/
theorem v92 (x1 : (⟨S2x800000, .i32⟩ : BufTy).Contents (Elt F)) : val_main_v92 (F := F) x1 = val_main_v30 (F := F) x1 := edge_factor x1
theorem v109 (x1 : (⟨S2x800000, .i32⟩ : BufTy).Contents (Elt F)) : val_main_v109 (F := F) x1 = val_main_v47 (F := F) x1 := self_factor_column x1

end Cert.ReferenceIdeal.Twice

end
-- ==== Proof.StagesD.lean ====
import proofs.«153109_j7215545057454_1_alg».proof.Proof.Gen.KernelIdeal.Frame
import proofs.«153109_j7215545057454_1_alg».proof.Proof.RefRead
import proofs.«153109_j7215545057454_1_alg».proof.Proof.LibColumn
import proofs.«153109_j7215545057454_1_alg».proof.Proof.Bounds
import proofs.«153109_j7215545057454_1_alg».proof.Proof.Project
import proofs.«153109_j7215545057454_1_alg».proof.Proof.Halves
import proofs.«153109_j7215545057454_1_alg».proof.Proof.ProjectRef
import proofs.«153109_j7215545057454_1_alg».proof.Proof.Activate
import proofs.«153109_j7215545057454_1_alg».proof.Proof.ActivateRef
import proofs.«153109_j7215545057454_1_alg».proof.Proof.RefTwice
import Idealize.ShloMosaic.Lib.StableHlo.Run
import Idealize.ShloMosaic.PureOps.Ideal

set_option maxRecDepth 16384
set_option quotPrecheck false
noncomputable section
namespace Cert.KernelIdeal.Stages
open Cert.ReferenceIdeal.Read
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## Across the second projection

The stage writes one array, its output, which is the 64-channel projection of what it found in its four input arrays:
the first data argument, the gated state, and the upper and lower halves of the second stacked weight matrix. That is
the reference's one product of the joined rows with the whole stack. Every buffer that is none of the stage's arrays
is untouched. -/

/-- The second projection's output, as the reference's product of the joined rows with the stacked weights. -/
theorem w8_v58 (h : At7 m ρ c) : W8 (F := Ideal) m ρ c (Proc.devRef .tc main_v58) = val_main_v67 (F := Ideal) a0 a1 a3 a4 a5 a6 := by
  refine (W8_arr m ρ c 4).trans ((Cert.KernelIdeal.Project.final2 (V7 m ρ) c).trans ?_)
  show Cert.Spec.proj64 (W7 m ρ c (Proc.devRef .tc main_arg0)) (W7 m ρ c (Proc.devRef .tc main_v55))
    (W7 m ρ c (Proc.devRef .tc main_v56)) (W7 m ρ c (Proc.devRef .tc main_v57)) = _
  rw [h.arg0, h.v55, h.v56, h.v57]
  exact Cert.ReferenceIdeal.ProjectRef.proj64_ref a0 a1 a3 a4 a5 a6 _ _
    (fun k j => Cert.KernelIdeal.Halves.upper64 a6 k j) (fun k j => Cert.KernelIdeal.Halves.lower64 a6 k j)

theorem w8_v1 (h : At7 m ρ c) : W8 (F := Ideal) m ρ c (Proc.devRef .tc main_v1) = val_main_v1 (F := Ideal) a1 :=
  (W8_of_ne m ρ c main_v1 (by decide)).trans h.v1

theorem w8_v3 (h : At7 m ρ c) : W8 (F := Ideal) m ρ c (Proc.devRef .tc main_v3) = val_main_v3 (F := Ideal) a1 :=
  (W8_of_ne m ρ c main_v3 (by decide)).trans h.v3

theorem w8_v28 (h : At7 m ρ c) : W8 (F := Ideal) m ρ c (Proc.devRef .tc main_v28) = val_main_v30 (F := Ideal) a1 :=
  (W8_of_ne m ρ c main_v28 (by decide)).trans h.v28

theorem w8_v32 (h : At7 m ρ c) : W8 (F := Ideal) m ρ c (Proc.devRef .tc main_v32) = val_main_v47 (F := Ideal) a1 :=
  (W8_of_ne m ρ c main_v32 (by decide)).trans h.v32

theorem w8_v54 (h : At7 m ρ c) : W8 (F := Ideal) m ρ c (Proc.devRef .tc main_v54) = val_main_v64 (F := Ideal) a0 a1 a3 a4 a5 :=
  (W8_of_ne m ρ c main_v54 (by decide)).trans h.v54

theorem w8_arg3 (h : At7 m ρ c) : W8 (F := Ideal) m ρ c (Proc.devRef .tc main_arg3) = a3 :=
  (W8_of_ne m ρ c main_arg3 (by decide)).trans h.arg3

theorem w8_arg7 (h : At7 m ρ c) : W8 (F := Ideal) m ρ c (Proc.devRef .tc main_arg7) = a7 :=
  (W8_of_ne m ρ c main_arg7 (by decide)).trans h.arg7

/-! ## The aggregation between the second projection and the update

Sixteen array operations, the first aggregation's again on 64 channels: the source node of each edge, the projection's
row gathered at it, scaled by the edge's factor, summed into the row of the edge's target node, from zero — the
reference's operations on the same arrays, one for one. Every other buffer is carried. -/

/-- The aggregate of the second projection over the edges. The reference computes the edge factor a second time for
    this aggregation; the stage chain carries the first computation's, which is the same array. -/
theorem w9_v71 (h : At7 m ρ c) : W9 (F := Ideal) m ρ c (Proc.devRef .tc main_v71) = val_main_v105 (F := Ideal) a0 a1 a3 a4 a5 a6 := by
  have h0 := w8_v58 m ρ c h
  have h1 := w8_v1 m ρ c h
  have h2 := w8_v3 m ρ c h
  have h3 := w8_v28 m ρ c h
  show StableHlo.after hostOps3 (W8 m ρ c) _ = _
  generalize W8 m ρ c = V at h0 h1 h2 h3 ⊢
  after_results_simp
  rw [h0, h1, h2, h3, ← Cert.ReferenceIdeal.Twice.v92 a1]
  try rfl

theorem w9_v58 (h : At7 m ρ c) : W9 (F := Ideal) m ρ c (Proc.devRef .tc main_v58) = val_main_v67 (F := Ideal) a0 a1 a3 a4 a5 a6 := by
  have h0 := w8_v58 m ρ c h
  show StableHlo.after hostOps3 (W8 m ρ c) _ = _
  generalize W8 m ρ c = V at h0 ⊢
  after_results_simp
  rw [h0]
  try rfl

theorem w9_v32 (h : At7 m ρ c) : W9 (F := Ideal) m ρ c (Proc.devRef .tc main_v32) = val_main_v47 (F := Ideal) a1 := by
  have h0 := w8_v32 m ρ c h
  show StableHlo.after hostOps3 (W8 m ρ c) _ = _
  generalize W8 m ρ c = V at h0 ⊢
  after_results_simp
  rw [h0]
  try rfl

theorem w9_v54 (h : At7 m ρ c) : W9 (F := Ideal) m ρ c (Proc.devRef .tc main_v54) = val_main_v64 (F := Ideal) a0 a1 a3 a4 a5 := by
  have h0 := w8_v54 m ρ c h
  show StableHlo.after hostOps3 (W8 m ρ c) _ = _
  generalize W8 m ρ c = V at h0 ⊢
  after_results_simp
  rw [h0]
  try rfl

theorem w9_arg3 (h : At7 m ρ c) : W9 (F := Ideal) m ρ c (Proc.devRef .tc main_arg3) = a3 := by
  have h0 := w8_arg3 m ρ c h
  show StableHlo.after hostOps3 (W8 m ρ c) _ = _
  generalize W8 m ρ c = V at h0 ⊢
  after_results_simp
  rw [h0]
  try rfl

theorem w9_arg7 (h : At7 m ρ c) : W9 (F := Ideal) m ρ c (Proc.devRef .tc main_arg7) = a7 := by
  have h0 := w8_arg7 m ρ c h
  show StableHlo.after hostOps3 (W8 m ρ c) _ = _
  generalize W8 m ρ c = V at h0 ⊢
  after_results_simp
  rw [h0]
  try rfl

/-! ## The step -/

/-- From the second projection's entry to the update's entry. -/
theorem at9_of_at7 (h : At7 m ρ c) : At9 m ρ c where
  v71 := w9_v71 m ρ c h
  v58 := w9_v58 m ρ c h
  v32 := w9_v32 m ρ c h
  arg7 := w9_arg7 m ρ c h
  v54 := w9_v54 m ρ c h
  arg3 := w9_arg3 m ρ c h

/-! ## Across the update

The last stage writes the result array: the update of the six arrays it finds — the second aggregate, the second
projection, the per-node factor column, the bias, the gate's second half and the state. With those at the reference's
stages, it is the reference's last stage. (The reference computes the factor column a second time for this stage; it
is the same array as the first.) -/

/-- The result, at the last boundary of the run, is the reference's last stage of the launch arguments. -/
theorem result_of_at9 (h : At9 m ρ c) :
    W10 (F := Ideal) m ρ c (Proc.devRef .tc main_v72) = val_main_v121 (F := Ideal) a0 a1 a3 a4 a5 a6 a7 := by
  refine (W10_arr m ρ c 6).trans ((Cert.KernelIdeal.Activate.final3 (V9 m ρ) c).trans ?_)
  show Cert.Spec.combine (W9 m ρ c (Proc.devRef .tc main_v71)) (W9 m ρ c (Proc.devRef .tc main_v58))
    (W9 m ρ c (Proc.devRef .tc main_v32)) (W9 m ρ c (Proc.devRef .tc main_arg7))
    (W9 m ρ c (Proc.devRef .tc main_v54)) (W9 m ρ c (Proc.devRef .tc main_arg3)) = _
  rw [h.v71, h.v58, h.v32, h.arg7, h.v54, h.arg3, ← Cert.ReferenceIdeal.Twice.v109 a1]
  exact Cert.ReferenceIdeal.ActivateRef.combine_ref a0 a1 a3 a4 a5 a6 a7

end Cert.KernelIdeal.Stages
end
-- ==== Proof.lean ====
/-
  The certificate of the graph-convolutional recurrent cell: a tiled kernel program against its array-program reference.

  Both programs compute, from node features x, a hidden state h, an edge list and two weight matrices with biases:
    the inverse square root d of each node's degree (targets counted, plus the self loop's two);
    a first convolution  conv₁ = Σ_{edges into r} d(src) d(dst) · p₁(src) + 2 d(r)² · p₁(r) + b₁   with  p₁ = [x | h] · W₁;
    the gate  σ(conv₁), re-laid as two halves  ρ  and  u;
    a second convolution  conv₂  of the same form with  p₂ = [x | ρ ⊙ h] · W₂  and  b₂;
    the new state  u ⊙ h + (1 − u) ⊙ tanh(conv₂).
  The kernel program runs the two projections, the gate and the final update as four tiled stages and leaves the
  edge gathers and the scatter-additions to whole-array operations, the same ones the reference uses. On the extended
  reals the only places the two differ are: a projection  [a | b] · [wa ; wb]  computed as  a · wa + b · wb  (a sum over
  128 channels split into its two halves: a law of any commutative monoid, so no finiteness is used); the logistic
  function spelt out by the reference as  1 / (1 + exp(−t));  and a per-node factor laid as a column by a cast on one
  side and by a broadcast on the other.

  The modules:  Spec (the four dense stages as functions, entry by entry);  Project / Activate (what each tiled stage
  leaves in its output array is that function of the arrays it reads);  ProjectRef / ActivateRef / RefTwice (the
  reference's stages are the same functions; its second call recomputes the degree factors);  KRun (the kernel program's
  run with its result named);  Bounds and StagesA–D (the kernel program's buffers at every boundary are the
  reference's stages of the arguments);  and here the five claims.
-/
import proofs.«153109_j7215545057454_1_alg».proof.Defs
import proofs.«153109_j7215545057454_1_alg».proof.Proof.Gen.Kernel
import proofs.«153109_j7215545057454_1_alg».proof.Proof.Gen.Kernel.Skeleton
import proofs.«153109_j7215545057454_1_alg».proof.Proof.Gen.Kernel.Launch
import proofs.«153109_j7215545057454_1_alg».proof.Proof.Gen.Kernel.Points
import proofs.«153109_j7215545057454_1_alg».proof.Proof.Gen.Kernel.Frame
import proofs.«153109_j7215545057454_1_alg».proof.Proof.Gen.KernelIdeal
import proofs.«153109_j7215545057454_1_alg».proof.Proof.Gen.KernelIdeal.Skeleton
import proofs.«153109_j7215545057454_1_alg».proof.Proof.Gen.KernelIdeal.Launch
import proofs.«153109_j7215545057454_1_alg».proof.Proof.Gen.KernelIdeal.Points
import proofs.«153109_j7215545057454_1_alg».proof.Proof.Gen.KernelIdeal.Frame
import proofs.«153109_j7215545057454_1_alg».proof.Proof.Gen.ReferenceIdeal
import proofs.«153109_j7215545057454_1_alg».proof.Proof.Gen.Pre_finite_inputs
import proofs.«153109_j7215545057454_1_alg».proof.Proof.KRun
import proofs.«153109_j7215545057454_1_alg».proof.Proof.RefRun
import proofs.«153109_j7215545057454_1_alg».proof.Proof.RefRead
import proofs.«153109_j7215545057454_1_alg».proof.Proof.RefReadEq
import proofs.«153109_j7215545057454_1_alg».proof.Proof.StagesA
import proofs.«153109_j7215545057454_1_alg».proof.Proof.StagesB
import proofs.«153109_j7215545057454_1_alg».proof.Proof.StagesC
import proofs.«153109_j7215545057454_1_alg».proof.Proof.StagesD
import Idealize.ShloMosaic.Adequacy
import Idealize.ShloMosaic.Init

noncomputable section

namespace Cert.Proof

open Idealize.ShloMosaic Idealize.SL.Sem

/-! ## The three runs -/

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is no rewrite to account for. -/
theorem preserves : Cert.preserves_Kernel_KernelIdeal := trivial

/-! ## The two results are one function of the arguments -/

/-- The kernel program's result buffer, at the last boundary of its run, holds the reference's last stage of the
    launch arguments: the boundaries in order, each from the one before. -/
theorem result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 (F := Ideal) m ρ c (Proc.devRef .tc Cert.KernelIdeal.main_v72)
      = Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  Cert.KernelIdeal.Stages.result_of_at9 m ρ c
    (Cert.KernelIdeal.Stages.at9_of_at7 m ρ c
      (Cert.KernelIdeal.Stages.at7_of_at5 m ρ c
        (Cert.KernelIdeal.Stages.at5_of_at3 m ρ c (Cert.KernelIdeal.Stages.at3 m ρ c))))

/-- Both programs run, from memories that agree on the arguments, to one array — the reference's last stage of the
    arguments — and leave the arguments unchanged. The reference's side reads its run's result term as that stage of
    its own arguments, which are the kernel program's. -/
theorem algebraic : Cert.algebraic_KernelIdeal_ReferenceIdeal := by
  intro m ρ m' ρ' _ hagree
  refine ⟨fun c => Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (result m ρ c), (h c).2⟩)
      (Cert.KernelIdeal.RunValue.run_result (F := Ideal) m ρ)
  · refine (θ_run Cert.ReferenceIdeal.defs _ _).mono (fun r h c => ⟨(h c).1.trans ((Cert.ReferenceIdeal.Read.val_main_v121_eq m' c).trans ?_), (h c).2⟩)
      (Cert.ReferenceIdeal.Value.run (F := Ideal) m' ρ')
    obtain ⟨h0, h1, h2, h3, h4, h5, h6, h7⟩ := hagree c
    rw [h0, h1, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
